-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x28x28 : Shape := ⟨4, ![4, 64, 28, 28]⟩
abbrev S64x64x3x3 : Shape := ⟨4, ![64, 64, 3, 3]⟩
abbrev S64 : Shape := ⟨1, ![64]⟩
abbrev S_ : Shape := ⟨0, ![]⟩

class Facts : Prop where
  bcast_S_S4x64x28x28 : S_.BroadcastsInDim S4x64x28x28 (![] : Fin 0 → Fin S4x64x28x28.rank)
  reducesTo_S4x64x28x28_S_d0_1_2_3 : S4x64x28x28.ReducesTo [0, 1, 2, 3] S_
  h_S_ : 0 < S_.numel
  bcast_S_S64x64x3x3 : S_.BroadcastsInDim S64x64x3x3 (![] : Fin 0 → Fin S64x64x3x3.rank)
  reducesTo_S64x64x3x3_S_d0_1_2_3 : S64x64x3x3.ReducesTo [0, 1, 2, 3] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x64x28x28 .f32) (main_arg1 : FVec F S64x64x3x3 .f32) (main_arg2 : FVec F S64 .f32) : IVec S_ 1 :=
  let main_v0 : FVec F S4x64x28x28 .f32 := Host.absf main_arg0
  let main_cst : FVec F S_ .f32 := constant S_ .f32 0x7F800000#32
  let main_v1 : FVec F S4x64x28x28 .f32 := broadcastInDim S4x64x28x28 ![] bcast_S_S4x64x28x28 main_cst
  let main_v2 : IVec S4x64x28x28 1 := cmpf .olt main_v0 main_v1
  let main_c : IVec S_ 1 := constantI S_ 1 1#1
  let main_v3 : IVec S_ 1 := (fun x v => Host.reduce IntOp.andi x v reducesTo_S4x64x28x28_S_d0_1_2_3 h_S_) main_v2 main_c
  let main_v4 : FVec F S64x64x3x3 .f32 := Host.absf main_arg1
  let main_cst_0 : FVec F S_ .f32 := constant S_ .f32 0x7F800000#32
  let main_v5 : FVec F S64x64x3x3 .f32 := broadcastInDim S64x64x3x3 ![] bcast_S_S64x64x3x3 main_cst_0
  let main_v6 : IVec S64x64x3x3 1 := cmpf .olt main_v4 main_v5
  let main_c_1 : IVec S_ 1 := constantI S_ 1 1#1
  let main_v7 : IVec S_ 1 := (fun x v => Host.reduce IntOp.andi x v reducesTo_S64x64x3x3_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x64x28x28 : Shape := ⟨4, ![4, 64, 28, 28]⟩
abbrev S64x64x3x3 : Shape := ⟨4, ![64, 64, 3, 3]⟩
abbrev S64 : Shape := ⟨1, ![64]⟩
abbrev S_ : Shape := ⟨0, ![]⟩
abbrev S4x64x30x30 : Shape := ⟨4, ![4, 64, 30, 30]⟩
abbrev S4x64x1x28x28 : Shape := ⟨5, ![4, 64, 1, 28, 28]⟩
abbrev S4x64x9x28x28 : Shape := ⟨5, ![4, 64, 9, 28, 28]⟩
abbrev S4x576x784 : Shape := ⟨3, ![4, 576, 784]⟩
abbrev S64x576 : Shape := ⟨2, ![64, 576]⟩
abbrev S576x64 : Shape := ⟨2, ![576, 64]⟩
abbrev S4x64x784 : Shape := ⟨3, ![4, 64, 784]⟩
abbrev S1x64x784 : Shape := ⟨3, ![1, 64, 784]⟩
abbrev S64x64 : Shape := ⟨2, ![64, 64]⟩
abbrev S64x784 : Shape := ⟨2, ![64, 784]⟩
abbrev S8x784 : Shape := ⟨2, ![8, 784]⟩
abbrev S8x64 : Shape := ⟨2, ![8, 64]⟩
abbrev S8x1x784 : Shape := ⟨3, ![8, 1, 784]⟩
abbrev S8x64x1 : Shape := ⟨3, ![8, 64, 1]⟩
abbrev S8x64x784 : Shape := ⟨3, ![8, 64, 784]⟩
abbrev S64x1 : Shape := ⟨2, ![64, 1]⟩

abbrev nBuf : Space → Nat
  | .hbm => 30
  | .vmem => 8
  | .smem => 0
  | _ => 0

abbrev bufTy : (tb : Table) → Fin (tcTables nBuf tb) → BufTy
  | .hbm, ⟨0, _⟩ => ⟨S4x64x28x28, .f32⟩
  | .hbm, ⟨1, _⟩ => ⟨S64x64x3x3, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S4x64x30x30, .f32⟩
  | .hbm, ⟨6, _⟩ => ⟨S4x64x28x28, .f32⟩
  | .hbm, ⟨7, _⟩ => ⟨S4x64x28x28, .f32⟩
  | .hbm, ⟨8, _⟩ => ⟨S4x64x28x28, .f32⟩
  | .hbm, ⟨9, _⟩ => ⟨S4x64x28x28, .f32⟩
  | .hbm, ⟨10, _⟩ => ⟨S4x64x28x28, .f32⟩
  | .hbm, ⟨11, _⟩ => ⟨S4x64x28x28, .f32⟩
  | .hbm, ⟨12, _⟩ => ⟨S4x64x28x28, .f32⟩
  | .hbm, ⟨13, _⟩ => ⟨S4x64x28x28, .f32⟩
  | .hbm, ⟨14, _⟩ => ⟨S4x64x28x28, .f32⟩
  | .hbm, ⟨15, _⟩ => ⟨S4x64x1x28x28, .f32⟩
  | .hbm, ⟨16, _⟩ => ⟨S4x64x1x28x28, .f32⟩
  | .hbm, ⟨17, _⟩ => ⟨S4x64x1x28x28, .f32⟩
  | .hbm, ⟨18, _⟩ => ⟨S4x64x1x28x28, .f32⟩
  | .hbm, ⟨19, _⟩ => ⟨S4x64x1x28x28, .f32⟩
  | .hbm, ⟨20, _⟩ => ⟨S4x64x1x28x28, .f32⟩
  | .hbm, ⟨21, _⟩ => ⟨S4x64x1x28x28, .f32⟩
  | .hbm, ⟨22, _⟩ => ⟨S4x64x1x28x28, .f32⟩
  | .hbm, ⟨23, _⟩ => ⟨S4x64x1x28x28, .f32⟩
  | .hbm, ⟨24, _⟩ => ⟨S4x64x9x28x28, .f32⟩
  | .hbm, ⟨25, _⟩ => ⟨S4x576x784, .f32⟩
  | .hbm, ⟨26, _⟩ => ⟨S64x576, .f32⟩
  | .hbm, ⟨27, _⟩ => ⟨S576x64, .f32⟩
  | .hbm, ⟨28, _⟩ => ⟨S4x64x784, .f32⟩
  | .hbm, ⟨29, _⟩ => ⟨S4x64x28x28, .f32⟩
  | .local _ .vmem, ⟨0, _⟩ => ⟨S1x64x784, .f32⟩
  | .local _ .vmem, ⟨1, _⟩ => ⟨S1x64x784, .f32⟩
  | .local _ .vmem, ⟨2, _⟩ => ⟨S64x64, .f32⟩
  | .local _ .vmem, ⟨3, _⟩ => ⟨S64x64, .f32⟩
  | .local _ .vmem, ⟨4, _⟩ => ⟨S64, .f32⟩
  | .local _ .vmem, ⟨5, _⟩ => ⟨S1x64x784, .f32⟩
  | .local _ .vmem, ⟨6, _⟩ => ⟨S1x64x784, .f32⟩
  | .local _ .vmem, ⟨7, _⟩ => ⟨S64x784, .f32⟩
  | _, _ => ⟨S4x64x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c8_i32 : BitVec 32 := 8#32
  let v153 : BitVec 1 := Scalar.cmpi .eq arg1 c8_i32
  let v154 : BitVec 32 := Scalar.extui v153
  let c0_i32_61 : BitVec 32 := 0#32
  let v155 : BitVec 1 := Scalar.cmpi .ne v154 c0_i32_61
  v155

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S4x64x28x28_S4x64x30x30_000_000_110_110 : S4x64x28x28.Pads (![0, 0, 1, 1] : Fin 4 → Nat) ![0, 0, 1, 1] ![0, 0, 0, 0] S4x64x30x30
  h_S_ : 0 < S_.numel
  slices_S4x64x30x30_S4x64x28x28_0_0_0_0 : S4x64x30x30.Slices ![0, 0, 0, 0] S4x64x28x28
  slices_S4x64x30x30_S4x64x28x28_0_0_0_1 : S4x64x30x30.Slices ![0, 0, 0, 1] S4x64x28x28
  slices_S4x64x30x30_S4x64x28x28_0_0_0_2 : S4x64x30x30.Slices ![0, 0, 0, 2] S4x64x28x28
  slices_S4x64x30x30_S4x64x28x28_0_0_1_0 : S4x64x30x30.Slices ![0, 0, 1, 0] S4x64x28x28
  slices_S4x64x30x30_S4x64x28x28_0_0_1_1 : S4x64x30x30.Slices ![0, 0, 1, 1] S4x64x28x28
  slices_S4x64x30x30_S4x64x28x28_0_0_1_2 : S4x64x30x30.Slices ![0, 0, 1, 2] S4x64x28x28
  slices_S4x64x30x30_S4x64x28x28_0_0_2_0 : S4x64x30x30.Slices ![0, 0, 2, 0] S4x64x28x28
  slices_S4x64x30x30_S4x64x28x28_0_0_2_1 : S4x64x30x30.Slices ![0, 0, 2, 1] S4x64x28x28
  slices_S4x64x30x30_S4x64x28x28_0_0_2_2 : S4x64x30x30.Slices ![0, 0, 2, 2] S4x64x28x28
  bcast_S4x64x28x28_S4x64x1x28x28_0_1_3_4 : S4x64x28x28.BroadcastsInDim S4x64x1x28x28 (![0, 1, 3, 4] : Fin 4 → Fin S4x64x1x28x28.rank)
  concatenates_S4x64x1x28x28_S4x64x1x28x28_S4x64x1x28x28_S4x64x1x28x28_S4x64x1x28x28_S4x64x1x28x28_S4x64x1x28x28_S4x64x1x28x28_S4x64x1x28x28_S4x64x9x28x28_d2 : Shape.Concatenates [S4x64x1x28x28, S4x64x1x28x28, S4x64x1x28x28, S4x64x1x28x28, S4x64x1x28x28, S4x64x1x28x28, S4x64x1x28x28, S4x64x1x28x28, S4x64x1x28x28] S4x64x9x28x28 2
  shapeCasts_S4x64x9x28x28_S4x576x784 : S4x64x9x28x28.ShapeCasts S4x576x784
  shapeCasts_S64x64x3x3_S64x576 : S64x64x3x3.ShapeCasts S64x576
  transposes_S64x576_S576x64_1_0 : S64x576.Transposes [1, 0] S576x64
  inb_S64x784_S64x784_0_0 : ∀ a, (![0, 0] : Fin 2 → Nat) a + S64x784.size a ≤ S64x784.size a
  h_S64x784 : 0 < S64x784.numel
  shapeCasts_S64x784_S64x784 : S64x784.ShapeCasts S64x784
  inb_S1x64x784_S1x64x784_0_0_0 : ∀ a, (![0, 0, 0] : Fin 3 → Nat) a + S1x64x784.size a ≤ S1x64x784.size a
  h_S1x64x784 : 0 < S1x64x784.numel
  shapeCasts_S1x64x784_S64x784 : S1x64x784.ShapeCasts S64x784
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S64x784_o0_0_S8x784 : S64x784.Slices ![0, 0] S8x784
  slices_S64x64_o0_0_S8x64 : S64x64.Slices ![0, 0] S8x64
  shapeCasts_S8x784_S8x1x784 : S8x784.ShapeCasts S8x1x784
  shapeCasts_S8x64_S8x64x1 : S8x64.ShapeCasts S8x64x1
  broadcasts_S8x1x784_S8x64x784 : S8x1x784.Broadcasts S8x64x784
  broadcasts_S8x64x1_S8x64x784 : S8x64x1.Broadcasts S8x64x784
  reduces_S8x64x784_S64x784 : S8x64x784.Reduces [0] S64x784
  slices_S64x784_o8_0_S8x784 : S64x784.Slices ![8, 0] S8x784
  slices_S64x64_o8_0_S8x64 : S64x64.Slices ![8, 0] S8x64
  slices_S64x784_o16_0_S8x784 : S64x784.Slices ![16, 0] S8x784
  slices_S64x64_o16_0_S8x64 : S64x64.Slices ![16, 0] S8x64
  slices_S64x784_o24_0_S8x784 : S64x784.Slices ![24, 0] S8x784
  slices_S64x64_o24_0_S8x64 : S64x64.Slices ![24, 0] S8x64
  slices_S64x784_o32_0_S8x784 : S64x784.Slices ![32, 0] S8x784
  slices_S64x64_o32_0_S8x64 : S64x64.Slices ![32, 0] S8x64
  slices_S64x784_o40_0_S8x784 : S64x784.Slices ![40, 0] S8x784
  slices_S64x64_o40_0_S8x64 : S64x64.Slices ![40, 0] S8x64
  slices_S64x784_o48_0_S8x784 : S64x784.Slices ![48, 0] S8x784
  slices_S64x64_o48_0_S8x64 : S64x64.Slices ![48, 0] S8x64
  slices_S64x784_o56_0_S8x784 : S64x784.Slices ![56, 0] S8x784
  slices_S64x64_o56_0_S8x64 : S64x64.Slices ![56, 0] S8x64
  inb_S64_S64_0 : ∀ a, (![0] : Fin 1 → Nat) a + S64.size a ≤ S64.size a
  h_S64 : 0 < S64.numel
  shapeCasts_S64_S64x1 : S64.ShapeCasts S64x1
  broadcasts_S64x1_S64x784 : S64x1.Broadcasts S64x784
  shapeCasts_S64x784_S1x64x784 : S64x784.ShapeCasts S1x64x784
  shapeCasts_S4x64x784_S4x64x28x28 : S4x64x784.ShapeCasts S4x64x28x28
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x784.size a ≤ S4x576x784.size a
  hwx0_0 : ∀ i : grid0.Coords, EltTy.bits .f32 = 32 ∨ (Rect.block (s := S4x576x784) S1x64x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S576x64.size a
  hwx0_1 : ∀ i : grid0.Coords, EltTy.bits .f32 = 32 ∨ (Rect.block (s := S576x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x784.size a ≤ S4x64x784.size a
  hwx0_3 : ∀ i : grid0.Coords, EltTy.bits .f32 = 32 ∨ (Rect.block (s := S4x64x784) S1x64x784.size (cc0_transform_3 i) (hinb0_3 i)).WholeWords (EltTy.packing .f32)

variable [Facts₀]

abbrev win0_0 : Pipeline.Window sig grid0 :=
  Pipeline.Window.ofSpec (Memref.whole main_v20) S1x64x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64x784.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x64x28x28 : Shape := ⟨4, ![4, 64, 28, 28]⟩
abbrev S64x64x3x3 : Shape := ⟨4, ![64, 64, 3, 3]⟩
abbrev S64 : Shape := ⟨1, ![64]⟩
abbrev S_ : Shape := ⟨0, ![]⟩
abbrev S4x64x30x30 : Shape := ⟨4, ![4, 64, 30, 30]⟩
abbrev S4x64x1x28x28 : Shape := ⟨5, ![4, 64, 1, 28, 28]⟩
abbrev S4x64x9x28x28 : Shape := ⟨5, ![4, 64, 9, 28, 28]⟩
abbrev S4x576x784 : Shape := ⟨3, ![4, 576, 784]⟩
abbrev S64x576 : Shape := ⟨2, ![64, 576]⟩
abbrev S4x784x576 : Shape := ⟨3, ![4, 784, 576]⟩
abbrev S4x784x1x576 : Shape := ⟨4, ![4, 784, 1, 576]⟩
abbrev S1x1x64x576 : Shape := ⟨4, ![1, 1, 64, 576]⟩
abbrev S4x784x64x576 : Shape := ⟨4, ![4, 784, 64, 576]⟩
abbrev S4x784x64 : Shape := ⟨3, ![4, 784, 64]⟩
abbrev S1x1x64 : Shape := ⟨3, ![1, 1, 64]⟩
abbrev S4x64x784 : Shape := ⟨3, ![4, 64, 784]⟩

abbrev nBuf : Space → Nat
  | .hbm => 85
  | .vmem => 0
  | .smem => 0
  | _ => 0

abbrev bufTy : (tb : Table) → Fin (tcTables nBuf tb) → BufTy
  | .hbm, ⟨0, _⟩ => ⟨S4x64x28x28, .f32⟩
  | .hbm, ⟨1, _⟩ => ⟨S64x64x3x3, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S4x64x30x30, .f32⟩
  | .hbm, ⟨6, _⟩ => ⟨S4x64x28x28, .f32⟩
  | .hbm, ⟨7, _⟩ => ⟨S4x64x28x28, .f32⟩
  | .hbm, ⟨8, _⟩ => ⟨S4x64x28x28, .f32⟩
  | .hbm, ⟨9, _⟩ => ⟨S4x64x28x28, .f32⟩
  | .hbm, ⟨10, _⟩ => ⟨S4x64x28x28, .f32⟩
  | .hbm, ⟨11, _⟩ => ⟨S4x64x28x28, .f32⟩
  | .hbm, ⟨12, _⟩ => ⟨S4x64x28x28, .f32⟩
  | .hbm, ⟨13, _⟩ => ⟨S4x64x28x28, .f32⟩
  | .hbm, ⟨14, _⟩ => ⟨S4x64x28x28, .f32⟩
  | .hbm, ⟨15, _⟩ => ⟨S4x64x1x28x28, .f32⟩
  | .hbm, ⟨16, _⟩ => ⟨S4x64x1x28x28, .f32⟩
  | .hbm, ⟨17, _⟩ => ⟨S4x64x1x28x28, .f32⟩
  | .hbm, ⟨18, _⟩ => ⟨S4x64x1x28x28, .f32⟩
  | .hbm, ⟨19, _⟩ => ⟨S4x64x1x28x28, .f32⟩
  | .hbm, ⟨20, _⟩ => ⟨S4x64x1x28x28, .f32⟩
  | .hbm, ⟨21, _⟩ => ⟨S4x64x1x28x28, .f32⟩
  | .hbm, ⟨22, _⟩ => ⟨S4x64x1x28x28, .f32⟩
  | .hbm, ⟨23, _⟩ => ⟨S4x64x1x28x28, .f32⟩
  | .hbm, ⟨24, _⟩ => ⟨S4x64x9x28x28, .f32⟩
  | .hbm, ⟨25, _⟩ => ⟨S4x576x784, .f32⟩
  | .hbm, ⟨26, _⟩ => ⟨S64x576, .f32⟩
  | .hbm, ⟨27, _⟩ => ⟨S4x784x576, .f32⟩
  | .hbm, ⟨28, _⟩ => ⟨S4x784x1x576, .f32⟩
  | .hbm, ⟨29, _⟩ => ⟨S1x1x64x576, .f32⟩
  | .hbm, ⟨30, _⟩ => ⟨S4x784x64x576, .f32⟩
  | .hbm, ⟨31, _⟩ => ⟨S4x784x64x576, .f32⟩
  | .hbm, ⟨32, _⟩ => ⟨S4x784x64x576, .f32⟩
  | .hbm, ⟨33, _⟩ => ⟨S_, .f32⟩
  | .hbm, ⟨34, _⟩ => ⟨S4x784x64x576, .f32⟩
  | .hbm, ⟨35, _⟩ => ⟨S4x784x64x576, .f32⟩
  | .hbm, ⟨36, _⟩ => ⟨S4x784x64x576, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4x784x64x576, .f32⟩
  | .hbm, ⟨41, _⟩ => ⟨S4x784x64x576, .f32⟩
  | .hbm, ⟨42, _⟩ => ⟨S_, .f32⟩
  | .hbm, ⟨43, _⟩ => ⟨S4x784x64x576, .f32⟩
  | .hbm, ⟨44, _⟩ => ⟨S4x784x64x576, .f32⟩
  | .hbm, ⟨45, _⟩ => ⟨S_, .f32⟩
  | .hbm, ⟨46, _⟩ => ⟨S4x784x64x576, .f32⟩
  | .hbm, ⟨47, _⟩ => ⟨S4x784x64x576, .f32⟩
  | .hbm, ⟨48, _⟩ => ⟨S_, .f32⟩
  | .hbm, ⟨49, _⟩ => ⟨S4x784x64, .f32⟩
  | .hbm, ⟨50, _⟩ => ⟨S_, .f32⟩
  | .hbm, ⟨51, _⟩ => ⟨S4x784x64, .f32⟩
  | .hbm, ⟨52, _⟩ => ⟨S4x784x64, .f32⟩
  | .hbm, ⟨53, _⟩ => ⟨S4x784x64, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4x784x64, .f32⟩
  | .hbm, ⟨58, _⟩ => ⟨S4x784x64, .f32⟩
  | .hbm, ⟨59, _⟩ => ⟨S_, .f32⟩
  | .hbm, ⟨60, _⟩ => ⟨S4x784x64, .f32⟩
  | .hbm, ⟨61, _⟩ => ⟨S4x784x64, .f32⟩
  | .hbm, ⟨62, _⟩ => ⟨S_, .f32⟩
  | .hbm, ⟨63, _⟩ => ⟨S4x784x64, .f32⟩
  | .hbm, ⟨64, _⟩ => ⟨S4x784x64, .f32⟩
  | .hbm, ⟨65, _⟩ => ⟨S1x1x64, .f32⟩
  | .hbm, ⟨66, _⟩ => ⟨S4x784x64, .f32⟩
  | .hbm, ⟨67, _⟩ => ⟨S4x784x64, .f32⟩
  | .hbm, ⟨68, _⟩ => ⟨S_, .f32⟩
  | .hbm, ⟨69, _⟩ => ⟨S4x784x64, .f32⟩
  | .hbm, ⟨70, _⟩ => ⟨S4x784x64, .f32⟩
  | .hbm, ⟨71, _⟩ => ⟨S4x784x64, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4x784x64, .f32⟩
  | .hbm, ⟨76, _⟩ => ⟨S4x784x64, .f32⟩
  | .hbm, ⟨77, _⟩ => ⟨S_, .f32⟩
  | .hbm, ⟨78, _⟩ => ⟨S4x784x64, .f32⟩
  | .hbm, ⟨79, _⟩ => ⟨S4x784x64, .f32⟩
  | .hbm, ⟨80, _⟩ => ⟨S_, .f32⟩
  | .hbm, ⟨81, _⟩ => ⟨S4x784x64, .f32⟩
  | .hbm, ⟨82, _⟩ => ⟨S4x784x64, .f32⟩
  | .hbm, ⟨83, _⟩ => ⟨S4x64x784, .f32⟩
  | .hbm, ⟨84, _⟩ => ⟨S4x64x28x28, .f32⟩
  | _, _ => ⟨S4x64x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_cst_1 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_cst_6 : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_cst_10 : Ref sig .tc := ⟨.hbm, 73, rfl⟩
abbrev main_call6_v0 : Ref sig .tc := ⟨.hbm, 74, rfl⟩
abbrev main_call6_v1 : Ref sig .tc := ⟨.hbm, 75, rfl⟩
abbrev main_call6_v2 : Ref sig .tc := ⟨.hbm, 76, rfl⟩
abbrev main_call6_v3 : Ref sig .tc := ⟨.hbm, 77, rfl⟩
abbrev main_call6_v4 : Ref sig .tc := ⟨.hbm, 78, rfl⟩
abbrev main_v47 : Ref sig .tc := ⟨.hbm, 79, rfl⟩
abbrev main_cst_11 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩

abbrev nD : Nat := 1
abbrev τ : Topo := Topo.v7x

variable {F : FTy → Type} [FloatOps F]

class Facts₀ : Prop where
  pads_S4x64x28x28_S4x64x30x30_000_000_110_110 : S4x64x28x28.Pads (![0, 0, 1, 1] : Fin 4 → Nat) ![0, 0, 1, 1] ![0, 0, 0, 0] S4x64x30x30
  h_S_ : 0 < S_.numel
  slices_S4x64x30x30_S4x64x28x28_0_0_0_0 : S4x64x30x30.Slices ![0, 0, 0, 0] S4x64x28x28
  slices_S4x64x30x30_S4x64x28x28_0_0_0_1 : S4x64x30x30.Slices ![0, 0, 0, 1] S4x64x28x28
  slices_S4x64x30x30_S4x64x28x28_0_0_0_2 : S4x64x30x30.Slices ![0, 0, 0, 2] S4x64x28x28
  slices_S4x64x30x30_S4x64x28x28_0_0_1_0 : S4x64x30x30.Slices ![0, 0, 1, 0] S4x64x28x28
  slices_S4x64x30x30_S4x64x28x28_0_0_1_1 : S4x64x30x30.Slices ![0, 0, 1, 1] S4x64x28x28
  slices_S4x64x30x30_S4x64x28x28_0_0_1_2 : S4x64x30x30.Slices ![0, 0, 1, 2] S4x64x28x28
  slices_S4x64x30x30_S4x64x28x28_0_0_2_0 : S4x64x30x30.Slices ![0, 0, 2, 0] S4x64x28x28
  slices_S4x64x30x30_S4x64x28x28_0_0_2_1 : S4x64x30x30.Slices ![0, 0, 2, 1] S4x64x28x28
  slices_S4x64x30x30_S4x64x28x28_0_0_2_2 : S4x64x30x30.Slices ![0, 0, 2, 2] S4x64x28x28
  bcast_S4x64x28x28_S4x64x1x28x28_0_1_3_4 : S4x64x28x28.BroadcastsInDim S4x64x1x28x28 (![0, 1, 3, 4] : Fin 4 → Fin S4x64x1x28x28.rank)
  concatenates_S4x64x1x28x28_S4x64x1x28x28_S4x64x1x28x28_S4x64x1x28x28_S4x64x1x28x28_S4x64x1x28x28_S4x64x1x28x28_S4x64x1x28x28_S4x64x1x28x28_S4x64x9x28x28_d2 : Shape.Concatenates [S4x64x1x28x28, S4x64x1x28x28, S4x64x1x28x28, S4x64x1x28x28, S4x64x1x28x28, S4x64x1x28x28, S4x64x1x28x28, S4x64x1x28x28, S4x64x1x28x28] S4x64x9x28x28 2
  shapeCasts_S4x64x9x28x28_S4x576x784 : S4x64x9x28x28.ShapeCasts S4x576x784
  shapeCasts_S64x64x3x3_S64x576 : S64x64x3x3.ShapeCasts S64x576
  transposes_S4x576x784_S4x784x576_0_2_1 : S4x576x784.Transposes [0, 2, 1] S4x784x576
  bcast_S4x784x576_S4x784x1x576_0_1_3 : S4x784x576.BroadcastsInDim S4x784x1x576 (![0, 1, 3] : Fin 3 → Fin S4x784x1x576.rank)
  bcast_S64x576_S1x1x64x576_2_3 : S64x576.BroadcastsInDim S1x1x64x576 (![2, 3] : Fin 2 → Fin S1x1x64x576.rank)
  bcast_S4x784x1x576_S4x784x64x576_0_1_2_3 : S4x784x1x576.BroadcastsInDim S4x784x64x576 (![0, 1, 2, 3] : Fin 4 → Fin S4x784x64x576.rank)
  bcast_S1x1x64x576_S4x784x64x576_0_1_2_3 : S1x1x64x576.BroadcastsInDim S4x784x64x576 (![0, 1, 2, 3] : Fin 4 → Fin S4x784x64x576.rank)
  bcast_S_S4x784x64x576 : S_.BroadcastsInDim S4x784x64x576 (![] : Fin 0 → Fin S4x784x64x576.rank)
  reducesTo_S4x784x64x576_S4x784x64_d3 : S4x784x64x576.ReducesTo [3] S4x784x64
  bcast_S_S4x784x64 : S_.BroadcastsInDim S4x784x64 (![] : Fin 0 → Fin S4x784x64.rank)
  bcast_S64_S1x1x64_2 : S64.BroadcastsInDim S1x1x64 (![2] : Fin 1 → Fin S1x1x64.rank)
  bcast_S1x1x64_S4x784x64_0_1_2 : S1x1x64.BroadcastsInDim S4x784x64 (![0, 1, 2] : Fin 3 → Fin S4x784x64.rank)
  transposes_S4x784x64_S4x64x784_0_2_1 : S4x784x64.Transposes [0, 2, 1] S4x64x784
  shapeCasts_S4x64x784_S4x64x28x28 : S4x64x784.ShapeCasts S4x64x28x28

variable [Facts₀]

class Facts : Prop extends Facts₀ where

variable [Facts]
-- ==== Proof.BitsFrameShared.lean ====
/-
  The frame of the quantised-convolution kernel, first part: what the three cases of the kernel body share.

  @main is a stretch of host operations (pad, nine shifted slices, their stack, the reshapes and the transpose that
  build the unfolded input [4, 576, 784] and the transposed weight [576, 64]), ONE pallas_call on the grid
  (batch b < 4, reduction step k < 9), and one host reshape after it.  The region stages a [1, 64, 784] block of
  the unfolded input, a [64, 64] block of the weight and the bias, keeps a [64, 784] accumulator in scratch across
  the nine steps of a batch, and writes the [1, 64, 784] output block back after step 8 only.  The body has two
  conditionals on the grid point: "k = 0" (the accumulator is reset) and "k = 8" (the epilogue stores the
  output).  Three assignments of them are met: first step, middle steps, last step.
-/
import proofs.«173581_j5368709120690_2_alg».proof.Proof.Gen.Kernel.Launch
import proofs.«173581_j5368709120690_2_alg».proof.Proof.Gen.Kernel.Skeleton
import proofs.«173581_j5368709120690_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch memory after the host operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the region touches unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the four arrays the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The three argument arrays end as launched: the image and the weight are staged by no window and written by no
    host operation; the bias is an input window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    ((h c).1 2).trans (((dats 0 c).arrAt_in 2 rfl _).trans ((hA c 2).trans (V_main_arg2 m c)))⟩) h

/-! ## The body's two conditions, decided over the grid -/

/-- "This is the first reduction step" (k = 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 9 = 0 :=
  (by decide +kernel : ∀ t : Fin grid0.N, cond0_0 (grid0.coords t) ↔ t.val % 9 = 0)

/-- "This is the last reduction step" (k = 8). -/
abbrev cond0_1 (i : grid0.Coords) : Prop := k0_cond2 i = 1#1
theorem hcond0_1 : ∀ t : Fin cfg0.N, cond0_1 (grid0.coords t) ↔ t.val % 9 = 8 :=
  (by decide +kernel : ∀ t : Fin grid0.N, cond0_1 (grid0.coords t) ↔ t.val % 9 = 8)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a first step the body stores nothing into the output block, and the block is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- The same at a middle step. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At a last step the body stores the output block. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output window, through which its contents are stated. -/
abbrev VO0_3 : View sig .tc .vmem S1x64x784 .f32 := (Memref.whole cc0_stg3_0 : Memref sig .tc .vmem S1x64x784 .f32).view
abbrev ms0_0 (t : Fin cfg0.N) : Memref sig .tc .vmem S1x64x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x784 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S64x784 .f32 := Memref.whole cc0_scratch0
abbrev VS0_0 : View sig .tc .vmem S64x784 .f32 := scM0_0.view

/-- What the launch hands the body besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frame

end
-- ==== Proof.BitsRunFirst.lean ====
/-
  The kernel body run at a first reduction step (the accumulator is reset, then added to; nothing is stored into the output block): on whole staging memrefs holding the three input
  blocks, the body runs to its end, faults nowhere, leaves the inputs as they were, and leaves in the accumulator
  (and, at a last step, in the output block's buffer) the pieces its stores wrote — found by running the body.
-/
import proofs.«173581_j5368709120690_2_alg».proof.Proof.BitsFrameShared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the output block's buffer and in the accumulator, with the
    body's triple. -/
noncomputable def kernelRun0_A (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : cond0_0 i) (hc1 : ¬cond0_1 i)
    (x0 : Vec F S1x64x784 .f32) (x1 : Vec F S64x64 .f32) (x2 : Vec F S64 .f32) :
    Σ' (L3 : List (View.Piece (Elt F) S1x64x784 .f32)), { LS0 : List (View.Piece (Elt F) S64x784 .f32) //
      ∀ (xi3 : Vec F S1x64x784 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__quant_kernel i arg2 harg2 arg3 harg3 arg4 harg4 arg5 harg5 arg6 harg6) K } := by
  refine ⟨[], ?_, fun xi3 E K => ?run⟩
  case run =>
    simp only [cc0__quant_kernel_eq_skeleton]; unfold cc0__quant_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.BitsRunMiddle.lean ====
/-
  The kernel body run at a middle reduction step (the accumulator is added to; nothing is stored into the output block): on whole staging memrefs holding the three input
  blocks, the body runs to its end, faults nowhere, leaves the inputs as they were, and leaves in the accumulator
  (and, at a last step, in the output block's buffer) the pieces its stores wrote — found by running the body.
-/
import proofs.«173581_j5368709120690_2_alg».proof.Proof.BitsFrameShared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the output block's buffer and in the accumulator, with the
    body's triple. -/
noncomputable def kernelRun0_B (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : ¬cond0_1 i)
    (x0 : Vec F S1x64x784 .f32) (x1 : Vec F S64x64 .f32) (x2 : Vec F S64 .f32) (xs0 : Vec F S64x784 .f32) :
    Σ' (L3 : List (View.Piece (Elt F) S1x64x784 .f32)), { LS0 : List (View.Piece (Elt F) S64x784 .f32) //
      ∀ (xi3 : Vec F S1x64x784 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__quant_kernel i arg2 harg2 arg3 harg3 arg4 harg4 arg5 harg5 arg6 harg6) K } := by
  refine ⟨[], ?_, fun xi3 E K => ?run⟩
  case run =>
    simp only [cc0__quant_kernel_eq_skeleton]; unfold cc0__quant_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frame

end
-- ==== Proof.BitsRunLast.lean ====
/-
  The kernel body run at a last reduction step (the accumulator is added to and the epilogue stores the output block): on whole staging memrefs holding the three input
  blocks, the body runs to its end, faults nowhere, leaves the inputs as they were, and leaves in the accumulator
  (and, at a last step, in the output block's buffer) the pieces its stores wrote — found by running the body.
-/
import proofs.«173581_j5368709120690_2_alg».proof.Proof.BitsFrameShared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the output block's buffer and in the accumulator, with the
    body's triple. -/
noncomputable def kernelRun0_C (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : cond0_1 i)
    (x0 : Vec F S1x64x784 .f32) (x1 : Vec F S64x64 .f32) (x2 : Vec F S64 .f32) (xs0 : Vec F S64x784 .f32) :
    Σ' (L3 : List (View.Piece (Elt F) S1x64x784 .f32)), { LS0 : List (View.Piece (Elt F) S64x784 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__quant_kernel i arg2 harg2 arg3 harg3 arg4 harg4 arg5 harg5 arg6 harg6) K } := by
  refine ⟨?_, ?_, fun E K => ?run⟩
  case run =>
    simp only [cc0__quant_kernel_eq_skeleton]; unfold cc0__quant_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frame

end
-- ==== Proof.BitsFrame.lean ====
/-
  The frame of the quantised-convolution kernel, last part: what the accumulator and the output block's buffer hold
  after each grid point (by recursion on the point: a first step starts from anything, every other step from what
  the step before left in the accumulator), the region's invariant, the body obligation at a generic point (the two
  conditions decide which of the three runs applies), the run of @main and the frame.
-/
import proofs.«173581_j5368709120690_2_alg».proof.Proof.BitsRunFirst
import proofs.«173581_j5368709120690_2_alg».proof.Proof.BitsRunMiddle
import proofs.«173581_j5368709120690_2_alg».proof.Proof.BitsRunLast

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A placeholder for the output block's buffer at a step that stores nothing into it (never consulted: the block is
    neither written back nor read there). -/
def out0_A_3 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : cond0_0 i) (hc1 : ¬cond0_1 i)
    (x0 : Vec F S1x64x784 .f32) (x1 : Vec F S64x64 .f32) (x2 : Vec F S64 .f32) : Vec F S1x64x784 .f32 :=
  VO0_3.read (Elt F) (VO0_3.writes (Elt F) VO0_3.junk (kernelRun0_A c i arg2 harg2 arg3 harg3 arg4 harg4 arg5 harg5 arg6 harg6 hc0 hc1 x0 x1 x2).1)

/-- The step's stores into the accumulator cover it (each is a store of the whole buffer). -/
theorem scover0_A_0 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : cond0_0 i) (hc1 : ¬cond0_1 i)
    (x0 : Vec F S1x64x784 .f32) (x1 : Vec F S64x64 .f32) (x2 : Vec F S64 .f32) (y : S64x784.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S64x784.size (by sl_kernel_rfl) y

/-- What the step leaves in the accumulator. -/
def sout0_A_0 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : cond0_0 i) (hc1 : ¬cond0_1 i)
    (x0 : Vec F S1x64x784 .f32) (x1 : Vec F S64x64 .f32) (x2 : Vec F S64 .f32) : Vec F S64x784 .f32 :=
  VS0_0.read (Elt F) (VS0_0.writes (Elt F) VS0_0.junk (kernelRun0_A c i arg2 harg2 arg3 harg3 arg4 harg4 arg5 harg5 arg6 harg6 hc0 hc1 x0 x1 x2).2.1)

/-- A placeholder for the output block's buffer at a step that stores nothing into it (never consulted: the block is
    neither written back nor read there). -/
def out0_B_3 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : ¬cond0_1 i)
    (x0 : Vec F S1x64x784 .f32) (x1 : Vec F S64x64 .f32) (x2 : Vec F S64 .f32) (xs0 : Vec F S64x784 .f32) : Vec F S1x64x784 .f32 :=
  VO0_3.read (Elt F) (VO0_3.writes (Elt F) VO0_3.junk (kernelRun0_B c i arg2 harg2 arg3 harg3 arg4 harg4 arg5 harg5 arg6 harg6 hc0 hc1 x0 x1 x2 xs0).1)

/-- The step's stores into the accumulator cover it (each is a store of the whole buffer). -/
theorem scover0_B_0 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : ¬cond0_1 i)
    (x0 : Vec F S1x64x784 .f32) (x1 : Vec F S64x64 .f32) (x2 : Vec F S64 .f32) (xs0 : Vec F S64x784 .f32) (y : S64x784.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S64x784.size (by sl_kernel_rfl) y

/-- What the step leaves in the accumulator. -/
def sout0_B_0 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : ¬cond0_1 i)
    (x0 : Vec F S1x64x784 .f32) (x1 : Vec F S64x64 .f32) (x2 : Vec F S64 .f32) (xs0 : Vec F S64x784 .f32) : Vec F S64x784 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- The epilogue's store covers the output block's buffer. -/
theorem cover0_C_3 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : cond0_1 i)
    (x0 : Vec F S1x64x784 .f32) (x1 : Vec F S64x64 .f32) (x2 : Vec F S64 .f32) (xs0 : Vec F S64x784 .f32) (y : S1x64x784.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x64x784.size (by sl_kernel_rfl) y

/-- What a last step leaves in the output block's buffer. -/
def out0_C_3 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : cond0_1 i)
    (x0 : Vec F S1x64x784 .f32) (x1 : Vec F S64x64 .f32) (x2 : Vec F S64 .f32) (xs0 : Vec F S64x784 .f32) : Vec F S1x64x784 .f32 :=
  VO0_3.read (Elt F) (VO0_3.writes (Elt F) VO0_3.junk (kernelRun0_C c i arg2 harg2 arg3 harg3 arg4 harg4 arg5 harg5 arg6 harg6 hc0 hc1 x0 x1 x2 xs0).1)

/-- The step's stores into the accumulator cover it (each is a store of the whole buffer). -/
theorem scover0_C_0 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : cond0_1 i)
    (x0 : Vec F S1x64x784 .f32) (x1 : Vec F S64x64 .f32) (x2 : Vec F S64 .f32) (xs0 : Vec F S64x784 .f32) (y : S64x784.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S64x784.size (by sl_kernel_rfl) y

/-- What the step leaves in the accumulator. -/
def sout0_C_0 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : cond0_1 i)
    (x0 : Vec F S1x64x784 .f32) (x1 : Vec F S64x64 .f32) (x2 : Vec F S64 .f32) (xs0 : Vec F S64x784 .f32) : Vec F S64x784 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the buffers hold after each point -/

/-- The output block's buffer and the accumulator after the body at position `n`: the run of the case the two
    conditions select there, a step that is not a first one started from what the step before left in the accumulator. -/
def outsAt0 (c : Dev nD) : (n : ℕ) → n < cfg0.N → Vec F S1x64x784 .f32 × Vec F S64x784 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 9 = 0 then
      if h1 : (n + 1) % 9 = 8 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 9 = 8 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 9 = 0) (h1 : ¬t.val % 9 = 8) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 9 = 0) (h1 : ¬t.val % 9 = 8) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 9 = 0) (h1 : t.val % 9 = 8) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block, the output's buffer and the
    accumulator at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the two conditions say which case the point is in;
    that case's run applies, the invariant handing it the accumulator (named, unless this is the very first point) and
    taking it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  by_cases h0 : t.val % 9 = 0
  · by_cases h1 : t.val % 9 = 8
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 9 = 8
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 36 := N_0; omega)

/-! ## The run and the frame -/

set_option backward.isDefEq.respectTransparency.types false in
/-- Every weakly fair execution of @main terminates without a fault, with each staged array at what the library
    computes from the proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Frame

end
-- ==== Proof.IdealFrameShared.lean ====
/-
  The frame of the quantised-convolution kernel, first part: what the three cases of the kernel body share.

  @main is a stretch of host operations (pad, nine shifted slices, their stack, the reshapes and the transpose that
  build the unfolded input [4, 576, 784] and the transposed weight [576, 64]), ONE pallas_call on the grid
  (batch b < 4, reduction step k < 9), and one host reshape after it.  The region stages a [1, 64, 784] block of
  the unfolded input, a [64, 64] block of the weight and the bias, keeps a [64, 784] accumulator in scratch across
  the nine steps of a batch, and writes the [1, 64, 784] output block back after step 8 only.  The body has two
  conditionals on the grid point: "k = 0" (the accumulator is reset) and "k = 8" (the epilogue stores the
  output).  Three assignments of them are met: first step, middle steps, last step.
-/
import proofs.«173581_j5368709120690_2_alg».proof.Proof.Gen.KernelIdeal.Launch
import proofs.«173581_j5368709120690_2_alg».proof.Proof.Gen.KernelIdeal.Skeleton
import proofs.«173581_j5368709120690_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch memory after the host operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the region touches unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the four arrays the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The three argument arrays end as launched: the image and the weight are staged by no window and written by no
    host operation; the bias is an input window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    ((h c).1 2).trans (((dats 0 c).arrAt_in 2 rfl _).trans ((hA c 2).trans (V_main_arg2 m c)))⟩) h

/-! ## The body's two conditions, decided over the grid -/

/-- "This is the first reduction step" (k = 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 9 = 0 :=
  (by decide +kernel : ∀ t : Fin grid0.N, cond0_0 (grid0.coords t) ↔ t.val % 9 = 0)

/-- "This is the last reduction step" (k = 8). -/
abbrev cond0_1 (i : grid0.Coords) : Prop := k0_cond2 i = 1#1
theorem hcond0_1 : ∀ t : Fin cfg0.N, cond0_1 (grid0.coords t) ↔ t.val % 9 = 8 :=
  (by decide +kernel : ∀ t : Fin grid0.N, cond0_1 (grid0.coords t) ↔ t.val % 9 = 8)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a first step the body stores nothing into the output block, and the block is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- The same at a middle step. -/
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At a last step the body stores the output block. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output window, through which its contents are stated. -/
abbrev VO0_3 : View sig .tc .vmem S1x64x784 .f32 := (Memref.whole cc0_stg3_0 : Memref sig .tc .vmem S1x64x784 .f32).view
abbrev ms0_0 (t : Fin cfg0.N) : Memref sig .tc .vmem S1x64x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x784 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S64x784 .f32 := Memref.whole cc0_scratch0
abbrev VS0_0 : View sig .tc .vmem S64x784 .f32 := scM0_0.view

/-- What the launch hands the body besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frame

end
-- ==== Proof.IdealRunFirst.lean ====
/-
  The kernel body run at a first reduction step (the accumulator is reset, then added to; nothing is stored into the output block): on whole staging memrefs holding the three input
  blocks, the body runs to its end, faults nowhere, leaves the inputs as they were, and leaves in the accumulator
  (and, at a last step, in the output block's buffer) the pieces its stores wrote — found by running the body.
-/
import proofs.«173581_j5368709120690_2_alg».proof.Proof.IdealFrameShared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the output block's buffer and in the accumulator, with the
    body's triple. -/
noncomputable def kernelRun0_A (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : cond0_0 i) (hc1 : ¬cond0_1 i)
    (x0 : Vec F S1x64x784 .f32) (x1 : Vec F S64x64 .f32) (x2 : Vec F S64 .f32) :
    Σ' (L3 : List (View.Piece (Elt F) S1x64x784 .f32)), { LS0 : List (View.Piece (Elt F) S64x784 .f32) //
      ∀ (xi3 : Vec F S1x64x784 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__quant_kernel i arg2 harg2 arg3 harg3 arg4 harg4 arg5 harg5 arg6 harg6) K } := by
  refine ⟨[], ?_, fun xi3 E K => ?run⟩
  case run =>
    simp only [cc0__quant_kernel_eq_skeleton]; unfold cc0__quant_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.IdealRunMiddle.lean ====
/-
  The kernel body run at a middle reduction step (the accumulator is added to; nothing is stored into the output block): on whole staging memrefs holding the three input
  blocks, the body runs to its end, faults nowhere, leaves the inputs as they were, and leaves in the accumulator
  (and, at a last step, in the output block's buffer) the pieces its stores wrote — found by running the body.
-/
import proofs.«173581_j5368709120690_2_alg».proof.Proof.IdealFrameShared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the output block's buffer and in the accumulator, with the
    body's triple. -/
noncomputable def kernelRun0_B (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : ¬cond0_1 i)
    (x0 : Vec F S1x64x784 .f32) (x1 : Vec F S64x64 .f32) (x2 : Vec F S64 .f32) (xs0 : Vec F S64x784 .f32) :
    Σ' (L3 : List (View.Piece (Elt F) S1x64x784 .f32)), { LS0 : List (View.Piece (Elt F) S64x784 .f32) //
      ∀ (xi3 : Vec F S1x64x784 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__quant_kernel i arg2 harg2 arg3 harg3 arg4 harg4 arg5 harg5 arg6 harg6) K } := by
  refine ⟨[], ?_, fun xi3 E K => ?run⟩
  case run =>
    simp only [cc0__quant_kernel_eq_skeleton]; unfold cc0__quant_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frame

end
-- ==== Proof.IdealRunLast.lean ====
/-
  The kernel body run at a last reduction step (the accumulator is added to and the epilogue stores the output block): on whole staging memrefs holding the three input
  blocks, the body runs to its end, faults nowhere, leaves the inputs as they were, and leaves in the accumulator
  (and, at a last step, in the output block's buffer) the pieces its stores wrote — found by running the body.
-/
import proofs.«173581_j5368709120690_2_alg».proof.Proof.IdealFrameShared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the output block's buffer and in the accumulator, with the
    body's triple. -/
noncomputable def kernelRun0_C (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : cond0_1 i)
    (x0 : Vec F S1x64x784 .f32) (x1 : Vec F S64x64 .f32) (x2 : Vec F S64 .f32) (xs0 : Vec F S64x784 .f32) :
    Σ' (L3 : List (View.Piece (Elt F) S1x64x784 .f32)), { LS0 : List (View.Piece (Elt F) S64x784 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__quant_kernel i arg2 harg2 arg3 harg3 arg4 harg4 arg5 harg5 arg6 harg6) K } := by
  refine ⟨?_, ?_, fun E K => ?run⟩
  case run =>
    simp only [cc0__quant_kernel_eq_skeleton]; unfold cc0__quant_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frame

end
-- ==== Proof.IdealFrame.lean ====
/-
  The frame of the quantised-convolution kernel, last part: what the accumulator and the output block's buffer hold
  after each grid point (by recursion on the point: a first step starts from anything, every other step from what
  the step before left in the accumulator), the region's invariant, the body obligation at a generic point (the two
  conditions decide which of the three runs applies), the run of @main and the frame.
-/
import proofs.«173581_j5368709120690_2_alg».proof.Proof.IdealRunFirst
import proofs.«173581_j5368709120690_2_alg».proof.Proof.IdealRunMiddle
import proofs.«173581_j5368709120690_2_alg».proof.Proof.IdealRunLast

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A placeholder for the output block's buffer at a step that stores nothing into it (never consulted: the block is
    neither written back nor read there). -/
def out0_A_3 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : cond0_0 i) (hc1 : ¬cond0_1 i)
    (x0 : Vec F S1x64x784 .f32) (x1 : Vec F S64x64 .f32) (x2 : Vec F S64 .f32) : Vec F S1x64x784 .f32 :=
  VO0_3.read (Elt F) (VO0_3.writes (Elt F) VO0_3.junk (kernelRun0_A c i arg2 harg2 arg3 harg3 arg4 harg4 arg5 harg5 arg6 harg6 hc0 hc1 x0 x1 x2).1)

/-- The step's stores into the accumulator cover it (each is a store of the whole buffer). -/
theorem scover0_A_0 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : cond0_0 i) (hc1 : ¬cond0_1 i)
    (x0 : Vec F S1x64x784 .f32) (x1 : Vec F S64x64 .f32) (x2 : Vec F S64 .f32) (y : S64x784.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S64x784.size (by sl_kernel_rfl) y

/-- What the step leaves in the accumulator. -/
def sout0_A_0 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : cond0_0 i) (hc1 : ¬cond0_1 i)
    (x0 : Vec F S1x64x784 .f32) (x1 : Vec F S64x64 .f32) (x2 : Vec F S64 .f32) : Vec F S64x784 .f32 :=
  VS0_0.read (Elt F) (VS0_0.writes (Elt F) VS0_0.junk (kernelRun0_A c i arg2 harg2 arg3 harg3 arg4 harg4 arg5 harg5 arg6 harg6 hc0 hc1 x0 x1 x2).2.1)

/-- A placeholder for the output block's buffer at a step that stores nothing into it (never consulted: the block is
    neither written back nor read there). -/
def out0_B_3 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : ¬cond0_1 i)
    (x0 : Vec F S1x64x784 .f32) (x1 : Vec F S64x64 .f32) (x2 : Vec F S64 .f32) (xs0 : Vec F S64x784 .f32) : Vec F S1x64x784 .f32 :=
  VO0_3.read (Elt F) (VO0_3.writes (Elt F) VO0_3.junk (kernelRun0_B c i arg2 harg2 arg3 harg3 arg4 harg4 arg5 harg5 arg6 harg6 hc0 hc1 x0 x1 x2 xs0).1)

/-- The step's stores into the accumulator cover it (each is a store of the whole buffer). -/
theorem scover0_B_0 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : ¬cond0_1 i)
    (x0 : Vec F S1x64x784 .f32) (x1 : Vec F S64x64 .f32) (x2 : Vec F S64 .f32) (xs0 : Vec F S64x784 .f32) (y : S64x784.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S64x784.size (by sl_kernel_rfl) y

/-- What the step leaves in the accumulator. -/
def sout0_B_0 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : ¬cond0_1 i)
    (x0 : Vec F S1x64x784 .f32) (x1 : Vec F S64x64 .f32) (x2 : Vec F S64 .f32) (xs0 : Vec F S64x784 .f32) : Vec F S64x784 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- The epilogue's store covers the output block's buffer. -/
theorem cover0_C_3 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : cond0_1 i)
    (x0 : Vec F S1x64x784 .f32) (x1 : Vec F S64x64 .f32) (x2 : Vec F S64 .f32) (xs0 : Vec F S64x784 .f32) (y : S1x64x784.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x64x784.size (by sl_kernel_rfl) y

/-- What a last step leaves in the output block's buffer. -/
def out0_C_3 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : cond0_1 i)
    (x0 : Vec F S1x64x784 .f32) (x1 : Vec F S64x64 .f32) (x2 : Vec F S64 .f32) (xs0 : Vec F S64x784 .f32) : Vec F S1x64x784 .f32 :=
  VO0_3.read (Elt F) (VO0_3.writes (Elt F) VO0_3.junk (kernelRun0_C c i arg2 harg2 arg3 harg3 arg4 harg4 arg5 harg5 arg6 harg6 hc0 hc1 x0 x1 x2 xs0).1)

/-- The step's stores into the accumulator cover it (each is a store of the whole buffer). -/
theorem scover0_C_0 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : cond0_1 i)
    (x0 : Vec F S1x64x784 .f32) (x1 : Vec F S64x64 .f32) (x2 : Vec F S64 .f32) (xs0 : Vec F S64x784 .f32) (y : S64x784.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S64x784.size (by sl_kernel_rfl) y

/-- What the step leaves in the accumulator. -/
def sout0_C_0 (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : cond0_1 i)
    (x0 : Vec F S1x64x784 .f32) (x1 : Vec F S64x64 .f32) (x2 : Vec F S64 .f32) (xs0 : Vec F S64x784 .f32) : Vec F S64x784 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the buffers hold after each point -/

/-- The output block's buffer and the accumulator after the body at position `n`: the run of the case the two
    conditions select there, a step that is not a first one started from what the step before left in the accumulator. -/
def outsAt0 (c : Dev nD) : (n : ℕ) → n < cfg0.N → Vec F S1x64x784 .f32 × Vec F S64x784 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 9 = 0 then
      if h1 : (n + 1) % 9 = 8 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 9 = 8 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 9 = 0) (h1 : ¬t.val % 9 = 8) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 9 = 0) (h1 : ¬t.val % 9 = 8) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 9 = 0) (h1 : t.val % 9 = 8) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block, the output's buffer and the
    accumulator at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the two conditions say which case the point is in;
    that case's run applies, the invariant handing it the accumulator (named, unless this is the very first point) and
    taking it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  by_cases h0 : t.val % 9 = 0
  · by_cases h1 : t.val % 9 = 8
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 9 = 8
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 36 := N_0; omega)

/-! ## The run and the frame -/

set_option backward.isDefEq.respectTransparency.types false in
/-- Every weakly fair execution of @main terminates without a fault, with each staged array at what the library
    computes from the proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Frame

end
-- ==== Proof.LibPairLayout.lean ====
/-
  Layout operations a pairwise table goes through, read at an index.

  A table over pairs `(i, j)` of rows of one `[a, b]` matrix is built by casting the matrix to `[a, 1, b]` and to
  `[1, a, b]` and repeating each along the unit axis: at `(i, j, r)` the first reads row `i`, the second row `j`.  A
  `[a, b]` table of weights is given a trailing unit axis and repeated along it.  Sums over the leading axis of the
  rank-three and rank-two results are plain sums over that axis's coordinate.
-/
import Idealize.ShloMosaic.Lib.Pipeline.Value
import Idealize.ShloMosaic.Lib.ValueIdx
import Idealize.ShloMosaic.PureOps.Ideal.Laws

namespace Idealize.ShloMosaic.ValueIdx

variable {α : Type}

/-- An `[a, b]` array cast to `[a, 1, b]` reads, at `(i, u, j)`, the operand at `(i, j)`: in row-major order the
    position is `(i · 1 + u) · b + j = i · b + j`, the unit coordinate being `0`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, b]` array repeated along its unit axis to `[a, c, b]` reads, at `(i, k, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, a, b]` array repeated along its unit axis to `[c, a, b]` reads, at `(k, i, j)`, the operand at `(0, i, j)`. -/
theorem broadcastTo_1ab_cab_apply {a b c : ℕ} (v : (⟨3, ![1, a, b]⟩ : Shape).Idx → α)
    (h : (⟨3, ![1, a, b]⟩ : Shape).Broadcasts ⟨3, ![c, a, b]⟩) (k : Fin c) (i : Fin a) (j : Fin b) :
    broadcastTo ⟨3, ![c, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `[a, b, 1]` array repeated along its unit axis to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- At the exact values, the sum over the leading axis of an `[a, b, c]` array, read at `(j, r)`, is the sum over `k` of
    the entries `(k, j, r)`. -/
theorem sum_leading_of3 {a b c : ℕ} {φ : FTy} (src : FVec Ideal ⟨3, ![a, b, c]⟩ φ) (acc : BitVec φ.bits)
    (h : (⟨3, ![a, b, c]⟩ : Shape).Reduces [(0 : Fin 3)] ⟨2, ![b, c]⟩) (hφ : FKind.Formats φ)
    (hacc : acc = FKind.add.neutral φ hφ) (j : Fin b) (r : Fin c) :
    multiReduction .add [(0 : Fin 3)] ⟨2, ![b, c]⟩ src acc h hφ hacc (ix2 j r) = ∑ k : Fin a, src (ix3 k j r) := by
  rw [Ideal.multiReduction_add_single]
  refine Finset.sum_congr rfl fun k _ => congrArg src ?_
  funext d
  apply Fin.ext
  match d with
  | ⟨0, _⟩ => rfl
  | ⟨1, _⟩ => rfl
  | ⟨2, _⟩ => rfl

/-- At the exact values, the sum over the leading axis of an `[a, b]` array, read at `r`, is the sum over `k` of the
    entries `(k, r)`. -/
theorem sum_leading_of2 {a b : ℕ} {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (r : Fin b) :
    multiReduction .add [(0 : Fin 2)] ⟨1, ![b]⟩ src acc h hφ hacc (ix1 r) = ∑ k : Fin a, src (ix2 k r) := by
  rw [Ideal.multiReduction_add_single]
  refine Finset.sum_congr rfl fun k _ => congrArg src ?_
  funext d
  apply Fin.ext
  match d with
  | ⟨0, _⟩ => rfl
  | ⟨1, _⟩ => rfl

end Idealize.ShloMosaic.ValueIdx
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.QuantMath.lean ====
/-
  The arithmetic of a fixed-point quantiser on the extended reals.

  The quantiser rounds to the nearest integer (ties to even) and clips to [-128, 127]; whatever it is applied to —
  a real or an infinity — the result is an integer of that range.  So a sum of quantised values, each divided by 8, is the
  integer sum divided by 8 exactly; multiplying it back by 8 gives the integer sum, which rounding leaves alone.  That
  is the law joining "quantise, rescale, sum, requantise" to "quantise in integer units, sum, clip".
-/
import Idealize.ShloMosaic.PureOps.Ideal
import Idealize.ShloMosaic.PureOps.Ideal.Laws

noncomputable section

namespace Cert.QuantMath

open Idealize.ShloMosaic

/-- An integer as an extended real. -/
abbrev ci (z : ℤ) : EReal := ((z : ℝ) : EReal)

/-! ## The three float literals -/

theorem c8_eq : Ideal.ofBits .f32 0x41000000#32 = ((8 : ℝ) : EReal) := by
  simp [Ideal.ofBits, Ideal.ieee, -EReal.coe_mul]; norm_num
theorem lo_eq : Ideal.ofBits .f32 0xC3000000#32 = ci (-128) := by
  have h : Ideal.ofBits .f32 0xC3000000#32 = ((-128 : ℝ) : EReal) := by
    simp [Ideal.ofBits, Ideal.ieee, -EReal.coe_mul]; norm_num
  rw [h]; show ((-128 : ℝ) : EReal) = (((-128 : ℤ) : ℝ) : EReal); norm_num
theorem hi_eq : Ideal.ofBits .f32 0x42FE0000#32 = ci 127 := by
  simp [Ideal.ofBits, Ideal.ieee, -EReal.coe_mul]; norm_num

/-! ## Integers inside the extended reals -/

theorem ci_add (a b : ℤ) : ci a + ci b = ci (a + b) := by
  show ((a : ℝ) : EReal) + ((b : ℝ) : EReal) = (((a + b : ℤ) : ℝ) : EReal)
  rw [Int.cast_add, EReal.coe_add]

theorem ci_zero : (0 : EReal) = ci 0 := by
  show (0 : EReal) = (((0 : ℤ) : ℝ) : EReal)
  rw [Int.cast_zero, EReal.coe_zero]

theorem ci_sum {ι : Type} (s : Finset ι) (f : ι → ℤ) : ∑ i ∈ s, ci (f i) = ci (∑ i ∈ s, f i) := by
  classical
  induction s using Finset.induction_on with
  | empty => rw [Finset.sum_empty, Finset.sum_empty]; exact ci_zero
  | insert a s ha ih => rw [Finset.sum_insert ha, Finset.sum_insert ha, ih, ci_add]

theorem ci_le {a b : ℤ} (h : a ≤ b) : ci a ≤ ci b := EReal.coe_le_coe_iff.2 (Int.cast_le.2 h)

theorem ci_max (a b : ℤ) : max (ci a) (ci b) = ci (max a b) := by
  rcases le_total a b with h | h
  · rw [max_eq_right h, max_eq_right (ci_le h)]
  · rw [max_eq_left h, max_eq_left (ci_le h)]

theorem ci_min (a b : ℤ) : min (ci a) (ci b) = ci (min a b) := by
  rcases le_total a b with h | h
  · rw [min_eq_left h, min_eq_left (ci_le h)]
  · rw [min_eq_right h, min_eq_right (ci_le h)]

/-! ## The quantiser -/

/-- Round to the nearest integer, ties to even, then clip to [-128, 127]. -/
def clipRound (p : EReal) : EReal :=
  min (Ideal.ofBits .f32 0x42FE0000#32) (max (Ideal.ofBits .f32 0xC3000000#32) (Ideal.liftRound Ideal.roundHalfEven p))

/-- Clip to [-128, 127], no rounding. -/
def clip (p : EReal) : EReal :=
  min (Ideal.ofBits .f32 0x42FE0000#32) (max (Ideal.ofBits .f32 0xC3000000#32) p)

/-- The last stage at one output element: the clipped integer sum is divided by 8, the bias added, and the result
    quantised once more (scaled by 8, rounded, clipped, divided by 8). -/
def epilogue (a b : EReal) : EReal :=
  Ideal.div (clipRound ((Ideal.div (clip a) (Ideal.ofBits .f32 0x41000000#32) + b) * Ideal.ofBits .f32 0x41000000#32)) (Ideal.ofBits .f32 0x41000000#32)

/-- Rounding leaves an integer alone. -/
theorem roundHalfEven_int (z : ℤ) : Ideal.roundHalfEven (z : ℝ) = z := by
  unfold Ideal.roundHalfEven
  simp only [Int.floor_intCast, sub_self]
  rw [if_pos (by norm_num)]

/-- The quantiser's value is an integer, whatever it is applied to. -/
theorem clipRound_int (p : EReal) : ∃ z : ℤ, clipRound p = ci z := by
  unfold clipRound
  rw [lo_eq, hi_eq]
  induction p using EReal.rec with
  | bot => exact ⟨_, by rw [Ideal.liftRound_bot, max_eq_left bot_le, ci_min]⟩
  | top => exact ⟨_, by rw [Ideal.liftRound_top, max_eq_right le_top, min_eq_left le_top]⟩
  | coe r => exact ⟨_, by rw [Ideal.liftRound_coe, ci_max, ci_min]⟩

/-- The integer the quantiser returns. -/
def qz (p : EReal) : ℤ := Classical.choose (clipRound_int p)

theorem clipRound_eq (p : EReal) : clipRound p = ci (qz p) := Classical.choose_spec (clipRound_int p)

/-- Requantising a rescaled integer gives the integer clipped. -/
theorem clipRound_ci (z : ℤ) : clipRound (ci z) = clip (ci z) := by
  unfold clipRound clip
  rw [show ci z = ((z : ℝ) : EReal) from rfl, Ideal.liftRound_coe, roundHalfEven_int]

/-! ## The law -/

/-- Each summand an integer divided by 8, summed from 0, then multiplied back by 8: the integer sum. -/
theorem rescale_sum {ι : Type} (s : Finset ι) (z : ι → ℤ) :
    (0 + ∑ k ∈ s, Ideal.div (ci (z k)) (Ideal.ofBits .f32 0x41000000#32)) * Ideal.ofBits .f32 0x41000000#32
      = ci (∑ k ∈ s, z k) := by
  rw [c8_eq, zero_add]
  have h1 : ∀ k, Ideal.div (ci (z k)) ((8 : ℝ) : EReal) = (((z k : ℝ) * (1 / 8 : ℝ) : ℝ) : EReal) := fun k => by
    rw [Ideal.div_coe (by norm_num : (8 : ℝ) ≠ 0), ← EReal.coe_mul]
  simp only [h1]
  have h2 : ∀ (t : Finset ι) (f : ι → ℝ), ∑ k ∈ t, ((f k : ℝ) : EReal) = ((∑ k ∈ t, f k : ℝ) : EReal) := by
    classical
    intro t f
    induction t using Finset.induction_on with
    | empty => rw [Finset.sum_empty, Finset.sum_empty, EReal.coe_zero]
    | insert a t ha ih => rw [Finset.sum_insert ha, Finset.sum_insert ha, ih, EReal.coe_add]
  rw [h2, ← EReal.coe_mul]
  show ((_ : ℝ) : EReal) = (((∑ k ∈ s, z k : ℤ) : ℝ) : EReal)
  congr 1
  rw [Int.cast_sum, ← Finset.sum_mul, mul_assoc]
  norm_num

/-- "Quantise, rescale, sum, requantise" is "sum the integers, clip". -/
theorem requantise_sum {ι : Type} (s : Finset ι) (z : ι → ℤ) :
    clipRound ((0 + ∑ k ∈ s, Ideal.div (ci (z k)) (Ideal.ofBits .f32 0x41000000#32)) * Ideal.ofBits .f32 0x41000000#32)
      = clip (ci (∑ k ∈ s, z k)) := by
  rw [rescale_sum, clipRound_ci]

end Cert.QuantMath

end
-- ==== Proof.StepRead.lean ====
/-
  One reduction step of the kernel body, read at an index.

  A step holds a [1, 64, 784] block of the unfolded input (64 reduction rows r, 784 output positions l) and a
  [64, 64] block of the transposed weight (rows r, 64 output channels o).  It scales the input block by 8 once, then
  goes through the 64 rows in eight chunks of eight: a chunk forms, for its eight rows, the products
  (x[r, l] · 8) · w[r, o], quantises each (round to nearest even, clip to [-128, 127]) and adds their sum over the
  eight rows to the accumulator.  At (o, l) a step therefore adds, chunk after chunk, the quantised products of all
  64 rows.  The epilogue of a last step clips the accumulator, divides by 8, adds the bias of the channel, and
  quantises once more (scale by 8, round, clip, divide by 8).
-/
import proofs.«173581_j5368709120690_2_alg».proof.Proof.Gen.KernelIdeal.Skeleton
import proofs.«173581_j5368709120690_2_alg».proof.Proof.LibPairLayout
import proofs.«173581_j5368709120690_2_alg».proof.Proof.LibKeepdims
import proofs.«173581_j5368709120690_2_alg».proof.Proof.QuantMath
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Step

open Cert.KernelIdeal Cert.KernelIdeal.Gen Cert.QuantMath
open Idealize.ShloMosaic Idealize.ShloMosaic.ValueIdx Idealize.SL.Sem

section Generic
variable {F : FTy → Type} [FloatOps F]

/-- One chunk: the quantised products of the eight rows from `off`, summed over the rows and added to the accumulator. -/
def chunk (off : ℕ) (h1 : S64x784.Slices ![off, 0] S8x784) (h2 : S64x64.Slices ![off, 0] S8x64)
    (v6 : FVec F S64x784 .f32) (v8 : FVec F S64x64 .f32) (acc : FVec F S64x784 .f32) : FVec F S64x784 .f32 :=
  shapeCast S64x784 (addf acc (multiReduction .add [0] S64x784
    (minimumf (broadcast S8x64x784 (Scalar.ofBits .f32 0x42FE0000#32)) (maximumf (broadcast S8x64x784 (Scalar.ofBits .f32 0xC3000000#32))
      (roundeven (mulf
        (broadcastTo S8x64x784 (shapeCast S8x1x784 (extractStridedSlice S8x784 ![off, 0] v6 h1) shapeCasts_S8x784_S8x1x784) broadcasts_S8x1x784_S8x64x784)
        (broadcastTo S8x64x784 (shapeCast S8x64x1 (extractStridedSlice S8x64 ![off, 0] v8 h2) shapeCasts_S8x64_S8x64x1) broadcasts_S8x64x1_S8x64x784)))))
    0x00000000#32 reduces_S8x64x784_S64x784 (.inl rfl) rfl)) shapeCasts_S64x784_S64x784

/-- A whole step: the eight chunks in order, over the scaled input block and the weight block. -/
def stepAcc (x0 : Vec F S1x64x784 .f32) (x1 : Vec F S64x64 .f32) (acc : FVec F S64x784 .f32) : FVec F S64x784 .f32 :=
  (chunk 56 slices_S64x784_o56_0_S8x784 slices_S64x64_o56_0_S8x64 (k0_pay5 x0) (k0_pay6 x1) (chunk 48 slices_S64x784_o48_0_S8x784 slices_S64x64_o48_0_S8x64 (k0_pay5 x0) (k0_pay6 x1) (chunk 40 slices_S64x784_o40_0_S8x784 slices_S64x64_o40_0_S8x64 (k0_pay5 x0) (k0_pay6 x1) (chunk 32 slices_S64x784_o32_0_S8x784 slices_S64x64_o32_0_S8x64 (k0_pay5 x0) (k0_pay6 x1) (chunk 24 slices_S64x784_o24_0_S8x784 slices_S64x64_o24_0_S8x64 (k0_pay5 x0) (k0_pay6 x1) (chunk 16 slices_S64x784_o16_0_S8x784 slices_S64x64_o16_0_S8x64 (k0_pay5 x0) (k0_pay6 x1) (chunk 8 slices_S64x784_o8_0_S8x784 slices_S64x64_o8_0_S8x64 (k0_pay5 x0) (k0_pay6 x1) (chunk 0 slices_S64x784_o0_0_S8x784 slices_S64x64_o0_0_S8x64 (k0_pay5 x0) (k0_pay6 x1) acc))))))))

/-- The body's payloads, composed as a step's stores and loads chain them, are the eight chunks. -/
theorem pays_eq_stepAcc (x0 : Vec F S1x64x784 .f32) (x1 : Vec F S64x64 .f32) (acc : Vec F S64x784 .f32) :
    k0_pay2 (k0_pay5 x0) (k0_pay6 x1) (k0_pay1 (k0_pay15 (k0_pay5 x0)) (k0_pay16 (k0_pay6 x1))
      (k0_pay14 (k0_pay5 x0) (k0_pay6 x1) (k0_pay13 (k0_pay5 x0) (k0_pay6 x1) (k0_pay12 (k0_pay11 (k0_pay5 x0) (k0_pay6 x1)
        (k0_pay10 (k0_pay5 x0) (k0_pay6 x1) (k0_pay9 (k0_pay8 x0 x1) (k0_pay7 x0 x1 acc))))))))
      = stepAcc x0 x1 acc := rfl

end Generic

/-! ## At the exact values, index by index -/

/-- The scaled input block. -/
theorem pay5_apply (x0 : Vec Ideal S1x64x784 .f32) (r : Fin 64) (l : Fin 784) :
    k0_pay5 x0 (ix2 r l) = x0 (ix3 (0 : Fin 1) r l) * Ideal.ofBits .f32 0x41000000#32 := by
  unfold k0_pay5
  rw [mulf_apply, shapeCast_1ab_ab_apply]
  rfl

/-- The weight block is read as it is. -/
theorem pay6_eq (x1 : Vec Ideal S64x64 .f32) : k0_pay6 x1 = x1 := shapeCast_self _ _

/-- A chunk at (o, l): the accumulator there plus the eight quantised products. -/
theorem chunk_apply (off : ℕ) (hoff : off + 8 ≤ 64) (h1 : S64x784.Slices ![off, 0] S8x784) (h2 : S64x64.Slices ![off, 0] S8x64)
    (v6 : FVec Ideal S64x784 .f32) (v8 : FVec Ideal S64x64 .f32) (acc : FVec Ideal S64x784 .f32) (o : Fin 64) (l : Fin 784) :
    chunk off h1 h2 v6 v8 acc (ix2 o l)
      = acc (ix2 o l) + ∑ s : Fin 8, clipRound (v6 (ix2 (⟨off + s.val, by omega⟩ : Fin 64) l) * v8 (ix2 (⟨off + s.val, by omega⟩ : Fin 64) o)) := by
  unfold chunk
  rw [shapeCast_self, addf_apply]
  refine congrArg (acc (ix2 o l) + ·) ?_
  refine (sum_leading_of3 _ _ _ _ _ o l).trans ?_
  refine Finset.sum_congr rfl fun s _ => ?_
  change clipRound (broadcastTo S8x64x784 _ _ (ix3 s o l) * broadcastTo S8x64x784 _ _ (ix3 s o l)) = _
  rw [broadcastTo_a1b_acb_apply, shapeCast_ab_a1b_apply, slice2_axis0_apply off v6 h1 s l ⟨off + s.val, by omega⟩ rfl,
    broadcastTo_ab1_abc_apply, shapeCast_ab_ab1_apply, slice2_axis0_apply off v8 h2 s o ⟨off + s.val, by omega⟩ rfl]

/-- The quantised product of row `r` at (o, l), in the kernel's order of the factors. -/
def rowTerm (x0 : Vec Ideal S1x64x784 .f32) (x1 : Vec Ideal S64x64 .f32) (o : Fin 64) (l : Fin 784) (r : Fin 64) : EReal :=
  clipRound (x0 (ix3 (0 : Fin 1) r l) * Ideal.ofBits .f32 0x41000000#32 * x1 (ix2 r o))

/-- A step at (o, l): the accumulator there plus the eight chunks' sums, in order. -/
theorem stepAcc_apply (x0 : Vec Ideal S1x64x784 .f32) (x1 : Vec Ideal S64x64 .f32) (acc : FVec Ideal S64x784 .f32) (o : Fin 64) (l : Fin 784) :
    stepAcc x0 x1 acc (ix2 o l) = ((((((((acc (ix2 o l) + ∑ s : Fin 8, rowTerm x0 x1 o l (⟨0 + s.val, by omega⟩ : Fin 64)) + ∑ s : Fin 8, rowTerm x0 x1 o l (⟨8 + s.val, by omega⟩ : Fin 64)) + ∑ s : Fin 8, rowTerm x0 x1 o l (⟨16 + s.val, by omega⟩ : Fin 64)) + ∑ s : Fin 8, rowTerm x0 x1 o l (⟨24 + s.val, by omega⟩ : Fin 64)) + ∑ s : Fin 8, rowTerm x0 x1 o l (⟨32 + s.val, by omega⟩ : Fin 64)) + ∑ s : Fin 8, rowTerm x0 x1 o l (⟨40 + s.val, by omega⟩ : Fin 64)) + ∑ s : Fin 8, rowTerm x0 x1 o l (⟨48 + s.val, by omega⟩ : Fin 64)) + ∑ s : Fin 8, rowTerm x0 x1 o l (⟨56 + s.val, by omega⟩ : Fin 64)) := by
  unfold stepAcc
  simp only [chunk_apply 0 (by norm_num), chunk_apply 8 (by norm_num), chunk_apply 16 (by norm_num), chunk_apply 24 (by norm_num), chunk_apply 32 (by norm_num), chunk_apply 40 (by norm_num), chunk_apply 48 (by norm_num), chunk_apply 56 (by norm_num), pay5_apply, pay6_eq]
  rfl

/-- The epilogue of a last step at (o, l). -/
theorem pay3_apply (acc : Vec Ideal S64x784 .f32) (x2 : Vec Ideal S64 .f32) (u : Fin 1) (o : Fin 64) (l : Fin 784) :
    k0_pay3 acc x2 (ix3 u o l) = epilogue (acc (ix2 o l)) (x2 (ix1 o)) := by
  unfold k0_pay3
  rw [shapeCast_ab_1ab_apply]
  change Ideal.div (clipRound ((Ideal.div (clip (acc (ix2 o l))) _ + broadcastTo S64x784 _ _ (ix2 o l)) * _)) _ = _
  rw [broadcastTo_a1_ab_apply, shapeCast_a_a1_apply]
  rfl

/-- The reset stores zero everywhere. -/
theorem pay4_apply (j : S64x784.Idx) : k0_pay4 (F := Ideal) j = 0 := by
  unfold k0_pay4
  rw [shapeCast_self]
  exact Ideal.ofBits_zero_f32

end Cert.KernelIdeal.Step

end
-- ==== Proof.LibWholeStores.lean ====
/-
  A buffer written by stores of the whole buffer, read back.

  When the last of a list of stores writes the whole buffer (the rectangle of the buffer's own sizes at zero
  offsets), a load of the whole buffer reads that store's payload, whatever the earlier stores were: an accumulator
  that is loaded, added to and stored back whole, several times in a row.
-/
import Idealize.ShloMosaic.Lib.Pipeline.Value

noncomputable section

namespace Idealize.ShloMosaic.View

variable {Val : EltTy → Type} {S : Shape} {e : EltTy}

/-- A load of the whole buffer after stores the last of which stored the whole buffer reads that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self .., by
    show y ∈ (Rect.whole S).set; rw [Rect.set_whole]; exact Finset.mem_univ y⟩), canon_cons_unit_zero rfl, ld_unit_zero rfl]

end Idealize.ShloMosaic.View

end
-- ==== Proof.StepValue.lean ====
/-
  What the three runs of the kernel body leave, as values of the blocks they were handed: a step leaves in the
  accumulator the eight chunks added to what it started from (zero at a first step), and a last step leaves in the
  output block's buffer the epilogue of that accumulator and the bias.
-/
import proofs.«173581_j5368709120690_2_alg».proof.Proof.IdealFrame
import proofs.«173581_j5368709120690_2_alg».proof.Proof.StepRead
import proofs.«173581_j5368709120690_2_alg».proof.Proof.LibWholeStores

set_option maxRecDepth 16384

noncomputable section

namespace Cert.KernelIdeal.Frame

open Cert.KernelIdeal Cert.KernelIdeal.Gen Cert.KernelIdeal.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz1 : (![0] : Fin 1 → Nat) = fun _ => 0 := funext fun a => by match a with | ⟨0, _⟩ => rfl
theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- A middle step leaves the eight chunks added to what the step before left. -/
theorem sout0_B_0_eq (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : ¬cond0_1 i)
    (x0 : Vec F S1x64x784 .f32) (x1 : Vec F S64x64 .f32) (x2 : Vec F S64 .f32) (xs0 : Vec F S64x784 .f32) : sout0_B_0 c i arg2 harg2 arg3 harg3 arg4 harg4 arg5 harg5 arg6 harg6 hc0 hc1 x0 x1 x2 xs0 = stepAcc x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_cons_unit_zero hz2]
  simp only [View.readCov_cons_unit_zero (S := S64x784) _ hz2, View.readCov_unit_zero (S := S64x784) _ hz2, View.readAt_eq_ld, harg2.read_unread, harg3.read_unread, harg6.read_unread,
    View.ld_unit_zero (S := S1x64x784) hz3, View.ld_unit_zero (S := S64x64) hz2, View.ld_unit_zero (S := S64x784) hz2]
  exact pays_eq_stepAcc x0 x1 xs0

/-- A last step leaves the same in the accumulator, -/
theorem sout0_C_0_eq (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : cond0_1 i)
    (x0 : Vec F S1x64x784 .f32) (x1 : Vec F S64x64 .f32) (x2 : Vec F S64 .f32) (xs0 : Vec F S64x784 .f32) : sout0_C_0 c i arg2 harg2 arg3 harg3 arg4 harg4 arg5 harg5 arg6 harg6 hc0 hc1 x0 x1 x2 xs0 = stepAcc x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_cons_unit_zero hz2]
  simp only [View.readCov_cons_unit_zero (S := S64x784) _ hz2, View.readCov_unit_zero (S := S64x784) _ hz2, View.readAt_eq_ld, harg2.read_unread, harg3.read_unread, harg6.read_unread,
    View.ld_unit_zero (S := S1x64x784) hz3, View.ld_unit_zero (S := S64x64) hz2, View.ld_unit_zero (S := S64x784) hz2]
  exact pays_eq_stepAcc x0 x1 xs0

/-- and in the output block's buffer the epilogue of that accumulator and the bias. -/
theorem out0_C_3_eq (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : ¬cond0_0 i) (hc1 : cond0_1 i)
    (x0 : Vec F S1x64x784 .f32) (x1 : Vec F S64x64 .f32) (x2 : Vec F S64 .f32) (xs0 : Vec F S64x784 .f32) : out0_C_3 c i arg2 harg2 arg3 harg3 arg4 harg4 arg5 harg5 arg6 harg6 hc0 hc1 x0 x1 x2 xs0 = k0_pay3 (stepAcc x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3]
  simp only [View.readCov_cons_unit_zero (S := S64x784) _ hz2, View.readCov_unit_zero (S := S64x784) _ hz2, View.readAt_eq_ld, harg2.read_unread, harg3.read_unread, harg4.read_unread, harg6.read_unread,
    View.ld_unit_zero (S := S1x64x784) hz3, View.ld_unit_zero (S := S64x64) hz2, View.ld_unit_zero (S := S64x784) hz2, View.ld_unit_zero (S := S64) hz1]
  exact congrArg (fun a => k0_pay3 a x2) (pays_eq_stepAcc x0 x1 xs0)

/-- A first step leaves the eight chunks added to zero. -/
theorem sout0_A_0_eq (c : Dev nD) (i : grid0.Coords) (arg2 : Memref sig .tc .vmem S1x64x784 .f32) (harg2 : arg2.IsWhole) (arg3 : Memref sig .tc .vmem S64x64 .f32) (harg3 : arg3.IsWhole) (arg4 : Memref sig .tc .vmem S64 .f32) (harg4 : arg4.IsWhole) (arg5 : Memref sig .tc .vmem S1x64x784 .f32) (harg5 : arg5.IsWhole) (arg6 : Memref sig .tc .vmem S64x784 .f32) (harg6 : arg6.IsWhole) (hc0 : cond0_0 i) (hc1 : ¬cond0_1 i)
    (x0 : Vec F S1x64x784 .f32) (x1 : Vec F S64x64 .f32) (x2 : Vec F S64 .f32) : sout0_A_0 c i arg2 harg2 arg3 harg3 arg4 harg4 arg5 harg5 arg6 harg6 hc0 hc1 x0 x1 x2 = stepAcc x0 x1 (k0_pay4 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero hz2]
  simp only [View.readCov_cons_unit_zero (S := S64x784) _ hz2, View.readCov_unit_zero (S := S64x784) _ hz2, View.readAt_eq_ld, harg2.read_unread, harg3.read_unread,
    View.ld_unit_zero (S := S1x64x784) hz3, View.ld_unit_zero (S := S64x64) hz2, View.ld_unit_zero (S := S64x784) hz2]
  exact pays_eq_stepAcc x0 x1 (k0_pay4 (F := F))

end Cert.KernelIdeal.Frame

end
-- ==== Proof.ConvSpec.lean ====
/-
  The quantised convolution as one function of the unfolded input X [4, 576, 784], the transposed weight
  WT [576, 64] and the bias [64]: at (b, o, l) the 576 products (X[b, j, l] · 8) · WT[j, o] are quantised to
  integers, summed, and the sum goes through the last stage with the bias of channel o.
-/
import proofs.«173581_j5368709120690_2_alg».proof.Proof.QuantMath
import Idealize.ShloMosaic.Lib.ValueIdx

noncomputable section

namespace Cert.ConvSpec

open Idealize.ShloMosaic Idealize.ShloMosaic.ValueIdx Cert.QuantMath

abbrev XS : Shape := ⟨3, ![4, 576, 784]⟩
abbrev WS : Shape := ⟨2, ![576, 64]⟩
abbrev WrS : Shape := ⟨2, ![64, 576]⟩
abbrev BS : Shape := ⟨1, ![64]⟩
abbrev OS : Shape := ⟨3, ![4, 64, 784]⟩

/-- A natural number as a reduction row, and as a batch (the remainder, so that every number names one). -/
def jx (j : ℕ) : Fin 576 := ⟨j % 576, Nat.mod_lt _ (by norm_num)⟩
def bx (b : ℕ) : Fin 4 := ⟨b % 4, Nat.mod_lt _ (by norm_num)⟩

theorem jx_val (j : Fin 576) : jx j.val = j := Fin.ext (Nat.mod_eq_of_lt j.isLt)
theorem bx_val (b : Fin 4) : bx b.val = b := Fin.ext (Nat.mod_eq_of_lt b.isLt)

/-- The integer the quantiser gives the product of reduction row `j`. -/
def fz (Xa : XS.Idx → EReal) (Wa : WS.Idx → EReal) (b : ℕ) (o : Fin 64) (l : Fin 784) (j : ℕ) : ℤ :=
  qz (Xa (ix3 (bx b) (jx j) l) * Ideal.ofBits .f32 0x41000000#32 * Wa (ix2 (jx j) o))

/-- The output at batch b, channel o, position l. -/
def Gf (Xa : XS.Idx → EReal) (Wa : WS.Idx → EReal) (Ba : BS.Idx → EReal) (b : Fin 4) (o : Fin 64) (l : Fin 784) : EReal :=
  epilogue (ci (∑ j ∈ Finset.range 576, fz Xa Wa b.val o l j)) (Ba (ix1 o))

/-- The whole output [4, 64, 784]. -/
def G (Xa : XS.Idx → EReal) (Wa : WS.Idx → EReal) (Ba : BS.Idx → EReal) : OS.Idx → EReal :=
  fun i => Gf Xa Wa Ba (i 0) (i 1) (i 2)

theorem G_ix3 (Xa : XS.Idx → EReal) (Wa : WS.Idx → EReal) (Ba : BS.Idx → EReal) (b : Fin 4) (o : Fin 64) (l : Fin 784) :
    G Xa Wa Ba (ix3 b o l) = Gf Xa Wa Ba b o l := rfl

/-- A [64, 576] weight read with its two coordinates exchanged. -/
def flipW (W : WrS.Idx → EReal) : WS.Idx → EReal := fun i => W (ix2 (i 1) (i 0))

theorem flipW_ix2 (W : WrS.Idx → EReal) (j : Fin 576) (o : Fin 64) : flipW W (ix2 j o) = W (ix2 o j) := rfl

/-- Sixty-four consecutive terms as eight runs of eight. -/
theorem sum64 (g : ℕ → ℤ) : ∑ r ∈ Finset.range 64, g r
    = (∑ s ∈ Finset.range 8, g (0 + s)) + (∑ s ∈ Finset.range 8, g (8 + s)) + (∑ s ∈ Finset.range 8, g (16 + s))
      + (∑ s ∈ Finset.range 8, g (24 + s)) + (∑ s ∈ Finset.range 8, g (32 + s)) + (∑ s ∈ Finset.range 8, g (40 + s))
      + (∑ s ∈ Finset.range 8, g (48 + s)) + (∑ s ∈ Finset.range 8, g (56 + s)) := by
  have h7 := Finset.sum_range_add g 56 8
  have h6 := Finset.sum_range_add g 48 8
  have h5 := Finset.sum_range_add g 40 8
  have h4 := Finset.sum_range_add g 32 8
  have h3 := Finset.sum_range_add g 24 8
  have h2 := Finset.sum_range_add g 16 8
  have h1 := Finset.sum_range_add g 8 8
  have h0 := Finset.sum_range_add g 0 8
  simp only [Nat.reduceAdd] at h7 h6 h5 h4 h3 h2 h1 h0
  rw [Finset.range_zero, Finset.sum_empty, zero_add] at h0
  rw [h7, h6, h5, h4, h3, h2, h1, h0]

end Cert.ConvSpec

end
-- ==== Proof.KernelValue.lean ====
/-
  The value the kernel's program computes: the accumulator after each grid point, the output array after the region,
  and the result after the last reshape.

  Point t = 9·b + k works on batch b and on reduction rows 64·k … 64·k + 63.  After it the accumulator holds, at
  (o, l), the integer sum of the quantised products of the rows 0 … 64·(k + 1) − 1 of batch b (by induction on the
  point: a first step starts from zero, every other step from what the step before left).  After step 8 this is the
  sum over all 576 rows, and the epilogue turns it into the output block of batch b.  The four output blocks tile
  the output array.
-/
import proofs.«173581_j5368709120690_2_alg».proof.Proof.StepValue
import proofs.«173581_j5368709120690_2_alg».proof.Proof.ConvSpec
import Idealize.ShloMosaic.Lib.StableHlo.Run
import Idealize.ShloMosaic.Lib.Pipeline.Value

set_option maxRecDepth 16384

noncomputable section

namespace Cert.KernelIdeal.Conv

open Cert.KernelIdeal Cert.KernelIdeal.Gen Cert.KernelIdeal.Step Cert.KernelIdeal.Frame Cert.QuantMath Cert.ConvSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The staged arrays as the region finds them -/

abbrev X (c : Dev nD) := V m c (Pipeline.arrRef spec0 0)
abbrev WT (c : Dev nD) := V m c (Pipeline.arrRef spec0 1)
abbrev Bs (c : Dev nD) := V m c (Pipeline.arrRef spec0 2)

/-! ## Where a block's elements sit in its array -/

/-- The printed index maps over the grid: point t = 9·b + k stages input block (b, k, 0), weight block (k, 0), the
    bias whole, and output block (b, 0, 0). -/
theorem idx_facts : ∀ t : Fin cfg0.N,
    win0_0.index t (0 : Fin 3) = t.val / 9 ∧ win0_0.index t (1 : Fin 3) = t.val % 9 ∧ win0_0.index t (2 : Fin 3) = 0
    ∧ win0_1.index t (0 : Fin 2) = t.val % 9 ∧ win0_1.index t (1 : Fin 2) = 0
    ∧ win0_2.index t (0 : Fin 1) = 0
    ∧ win0_3.index t (0 : Fin 3) = t.val / 9 ∧ win0_3.index t (1 : Fin 3) = 0 ∧ win0_3.index t (2 : Fin 3) = 0 :=
  (by decide +kernel : ∀ t : Fin grid0.N, _)

theorem t_lt (t : Fin cfg0.N) : t.val < 36 := lt_of_lt_of_eq t.isLt (show cfg0.N = 36 from N_0)

theorem blk0_read (A : XS.Idx → EReal) (t : Fin cfg0.N) (u : Fin 1) (r : Fin 64) (l : Fin 784) :
    ((cfg0.win 0).blk t).view.read (Elt Ideal) A (ix3 u r l)
      = A (ix3 (⟨t.val / 9, by have := t_lt t; omega⟩ : Fin 4) (⟨64 * (t.val % 9) + r.val, by omega⟩ : Fin 576) l) := by
  obtain ⟨e0, e1, e2, -⟩ := idx_facts t
  show A (((cfg0.win 0).blk t).view.emb (ix3 u r l)) = _
  refine congrArg A (funext fun a => Fin.ext ?_)
  match a with
  | ⟨0, _⟩ => show win0_0.index t (0 : Fin 3) * 1 + 1 * u.val = t.val / 9; omega
  | ⟨1, _⟩ => show win0_0.index t (1 : Fin 3) * 64 + 1 * r.val = 64 * (t.val % 9) + r.val; omega
  | ⟨2, _⟩ => show win0_0.index t (2 : Fin 3) * 784 + 1 * l.val = l.val; omega

theorem blk1_read (A : WS.Idx → EReal) (t : Fin cfg0.N) (r : Fin 64) (o : Fin 64) :
    ((cfg0.win 1).blk t).view.read (Elt Ideal) A (ix2 r o)
      = A (ix2 (⟨64 * (t.val % 9) + r.val, by omega⟩ : Fin 576) o) := by
  obtain ⟨-, -, -, e3, e4, -⟩ := idx_facts t
  show A (((cfg0.win 1).blk t).view.emb (ix2 r o)) = _
  refine congrArg A (funext fun a => Fin.ext ?_)
  match a with
  | ⟨0, _⟩ => show win0_1.index t (0 : Fin 2) * 64 + 1 * r.val = 64 * (t.val % 9) + r.val; omega
  | ⟨1, _⟩ => show win0_1.index t (1 : Fin 2) * 64 + 1 * o.val = o.val; omega

theorem blk2_read (A : BS.Idx → EReal) (t : Fin cfg0.N) (o : Fin 64) :
    ((cfg0.win 2).blk t).view.read (Elt Ideal) A (ix1 o) = A (ix1 o) := by
  obtain ⟨-, -, -, -, -, e5, -⟩ := idx_facts t
  show A (((cfg0.win 2).blk t).view.emb (ix1 o)) = _
  refine congrArg A (funext fun a => Fin.ext ?_)
  match a with
  | ⟨0, _⟩ => show win0_2.index t (0 : Fin 1) * 64 + 1 * o.val = o.val; omega

theorem blk3_read (A : OS.Idx → EReal) (t : Fin cfg0.N) (u : Fin 1) (o : Fin 64) (l : Fin 784) :
    ((cfg0.win 3).blk t).view.read (Elt Ideal) A (ix3 u o l)
      = A (ix3 (⟨t.val / 9, by have := t_lt t; omega⟩ : Fin 4) o l) := by
  obtain ⟨-, -, -, -, -, -, e6, e7, e8⟩ := idx_facts t
  show A (((cfg0.win 3).blk t).view.emb (ix3 u o l)) = _
  refine congrArg A (funext fun a => Fin.ext ?_)
  match a with
  | ⟨0, _⟩ => show win0_3.index t (0 : Fin 3) * 1 + 1 * u.val = t.val / 9; omega
  | ⟨1, _⟩ => show win0_3.index t (1 : Fin 3) * 64 + 1 * o.val = o.val; omega
  | ⟨2, _⟩ => show win0_3.index t (2 : Fin 3) * 784 + 1 * l.val = l.val; omega

/-! ## One step on blocks that are rows 64·k … 64·k + 63 of batch b -/

/-- Row r of such blocks is reduction row 64·k + r of batch b. -/
theorem rowTerm_rows (Xa : XS.Idx → EReal) (Wa : WS.Idx → EReal) (x0 : Vec Ideal S1x64x784 .f32) (x1 : Vec Ideal S64x64 .f32) (b k : ℕ)
    (hx0 : ∀ (r : Fin 64) (l : Fin 784), x0 (ix3 (0 : Fin 1) r l) = Xa (ix3 (bx b) (jx (64 * k + r.val)) l))
    (hx1 : ∀ (r : Fin 64) (o : Fin 64), x1 (ix2 r o) = Wa (ix2 (jx (64 * k + r.val)) o))
    (o : Fin 64) (l : Fin 784) (r : Fin 64) :
    rowTerm x0 x1 o l r = ci (fz Xa Wa b o l (64 * k + r.val)) := by
  unfold rowTerm fz
  rw [hx0, hx1, clipRound_eq]

/-- A step on such blocks adds the 64 integers of their rows. -/
theorem step_rows (Xa : XS.Idx → EReal) (Wa : WS.Idx → EReal) (x0 : Vec Ideal S1x64x784 .f32) (x1 : Vec Ideal S64x64 .f32) (b k : ℕ)
    (hx0 : ∀ (r : Fin 64) (l : Fin 784), x0 (ix3 (0 : Fin 1) r l) = Xa (ix3 (bx b) (jx (64 * k + r.val)) l))
    (hx1 : ∀ (r : Fin 64) (o : Fin 64), x1 (ix2 r o) = Wa (ix2 (jx (64 * k + r.val)) o))
    (acc : FVec Ideal S64x784 .f32) (A : ℤ) (o : Fin 64) (l : Fin 784) (hacc : acc (ix2 o l) = ci A) :
    stepAcc x0 x1 acc (ix2 o l) = ci (A + ∑ r ∈ Finset.range 64, fz Xa Wa b o l (64 * k + r)) := by
  have hs : ∀ (off : ℕ) (hoff : off + 8 ≤ 64), ∑ s : Fin 8, rowTerm x0 x1 o l (⟨off + s.val, by omega⟩ : Fin 64)
      = ci (∑ s ∈ Finset.range 8, fz Xa Wa b o l (64 * k + (off + s))) := by
    intro off hoff
    rw [← Fin.sum_univ_eq_sum_range (fun s => fz Xa Wa b o l (64 * k + (off + s))) 8, ← ci_sum]
    exact Finset.sum_congr rfl fun s _ => rowTerm_rows Xa Wa x0 x1 b k hx0 hx1 o l ⟨off + s.val, by omega⟩
  rw [stepAcc_apply, hacc, hs 0 (by norm_num), hs 8 (by norm_num), hs 16 (by norm_num), hs 24 (by norm_num), hs 32 (by norm_num), hs 40 (by norm_num), hs 48 (by norm_num), hs 56 (by norm_num)]
  simp only [ci_add]
  refine congrArg ci ?_
  have h := sum64 (fun r => fz Xa Wa b o l (64 * k + r))
  rw [h]
  ring

/-! ## Point t's blocks are such rows -/

theorem iblk0_apply (c : Dev nD) (t : Fin cfg0.N) (r : Fin 64) (l : Fin 784) :
    iblk m c 0 t (ix3 (0 : Fin 1) r l) = X m c (ix3 (bx (t.val / 9)) (jx (64 * (t.val % 9) + r.val)) l) := by
  have hN := t_lt t
  have e1 : (⟨t.val / 9, by omega⟩ : Fin 4) = bx (t.val / 9) := Fin.ext (Nat.mod_eq_of_lt (by omega)).symm
  have e2 : (⟨64 * (t.val % 9) + r.val, by omega⟩ : Fin 576) = jx (64 * (t.val % 9) + r.val) :=
    Fin.ext (Nat.mod_eq_of_lt (by omega)).symm
  unfold iblk
  exact (blk0_read (X m c) t 0 r l).trans (by rw [e1, e2])

theorem iblk1_apply (c : Dev nD) (t : Fin cfg0.N) (r : Fin 64) (o : Fin 64) :
    iblk m c 1 t (ix2 r o) = WT m c (ix2 (jx (64 * (t.val % 9) + r.val)) o) := by
  have hN := t_lt t
  have e2 : (⟨64 * (t.val % 9) + r.val, by omega⟩ : Fin 576) = jx (64 * (t.val % 9) + r.val) :=
    Fin.ext (Nat.mod_eq_of_lt (by omega)).symm
  unfold iblk
  exact (blk1_read (WT m c) t r o).trans (by rw [e2])

theorem iblk2_apply (c : Dev nD) (t : Fin cfg0.N) (o : Fin 64) :
    iblk m c 2 t (ix1 o) = Bs m c (ix1 o) := by
  unfold iblk
  exact blk2_read (Bs m c) t o

/-- A step on point t's blocks. -/
theorem step_apply (c : Dev nD) (t : Fin cfg0.N) (acc : FVec Ideal S64x784 .f32) (A : ℤ) (o : Fin 64) (l : Fin 784)
    (hacc : acc (ix2 o l) = ci A) :
    stepAcc (iblk m c 0 t) (iblk m c 1 t) acc (ix2 o l)
      = ci (A + ∑ r ∈ Finset.range 64, fz (X m c) (WT m c) (t.val / 9) o l (64 * (t.val % 9) + r)) :=
  step_rows (X m c) (WT m c) (iblk m c 0 t) (iblk m c 1 t) (t.val / 9) (t.val % 9) (iblk0_apply m c t) (iblk1_apply m c t) acc A o l hacc

/-! ## The accumulator after each point -/

set_option maxHeartbeats 1000000 in
/-- At a generic point, given what the point before left. -/
theorem acc_at (c : Dev nD) (t : Fin cfg0.N) (o : Fin 64) (l : Fin 784)
    (IH : t.val % 9 ≠ 0 → ∀ hn', (outsAt0 m c (t.val - 1) hn').2 (ix2 o l)
      = ci (∑ j ∈ Finset.range (64 * ((t.val - 1) % 9 + 1)), fz (X m c) (WT m c) ((t.val - 1) / 9) o l j)) :
    (outsAt0 m c t.val t.isLt).2 (ix2 o l)
      = ci (∑ j ∈ Finset.range (64 * (t.val % 9 + 1)), fz (X m c) (WT m c) (t.val / 9) o l j) := by
  have hN := t_lt t
  by_cases h0 : t.val % 9 = 0
  · rw [outsAt0_A m c t h0 (by omega)]
    dsimp only
    rw [sout0_A_0_eq]
    rw [step_apply m c t _ 0 o l (by rw [pay4_apply]; exact ci_zero)]
    refine congrArg ci ?_
    rw [h0]
    simp only [Nat.mul_zero, Nat.zero_add, zero_add, Nat.mul_one]
  · have e1 : (t.val - 1) / 9 = t.val / 9 := by omega
    have e2 : (t.val - 1) % 9 + 1 = t.val % 9 := by omega
    have ih := IH h0 (Nat.lt_of_le_of_lt (Nat.sub_le _ _) t.isLt)
    rw [e1, e2] at ih
    have hsplit : ∑ j ∈ Finset.range (64 * (t.val % 9 + 1)), fz (X m c) (WT m c) (t.val / 9) o l j
        = (∑ j ∈ Finset.range (64 * (t.val % 9)), fz (X m c) (WT m c) (t.val / 9) o l j)
          + ∑ r ∈ Finset.range 64, fz (X m c) (WT m c) (t.val / 9) o l (64 * (t.val % 9) + r) := by
      rw [Nat.mul_succ, Finset.sum_range_add]
    rw [hsplit]
    by_cases h1 : t.val % 9 = 8
    · rw [outsAt0_C m c t h0 h1]
      dsimp only
      rw [sout0_C_0_eq]
      exact step_apply m c t _ _ o l ih
    · rw [outsAt0_B m c t h0 h1]
      dsimp only
      rw [sout0_B_0_eq]
      exact step_apply m c t _ _ o l ih

/-- After point n the accumulator holds the integer sum over the rows met so far of the point's batch. -/
theorem acc_inv (c : Dev nD) : ∀ (n : ℕ) (hn : n < cfg0.N) (o : Fin 64) (l : Fin 784),
    (outsAt0 m c n hn).2 (ix2 o l)
      = ci (∑ j ∈ Finset.range (64 * (n % 9 + 1)), fz (X m c) (WT m c) (n / 9) o l j) := by
  intro n
  induction n with
  | zero => intro hn o l; exact acc_at m c ⟨0, hn⟩ o l (fun h => absurd (Nat.zero_mod 9) h)
  | succ n ih => intro hn o l; exact acc_at m c ⟨n + 1, hn⟩ o l (fun _ hn' => ih hn' o l)

/-! ## The output block of a last step, and the output array -/

/-- The output array after the region. -/
abbrev Gk (c : Dev nD) : OS.Idx → EReal := G (X m c) (WT m c) (Bs m c)

set_option maxHeartbeats 1000000 in
/-- What a last step leaves in the output block's buffer. -/
theorem out_at (c : Dev nD) (t : Fin cfg0.N) (h1 : t.val % 9 = 8) (u : Fin 1) (o : Fin 64) (l : Fin 784) :
    (outsAt0 m c t.val t.isLt).1 (ix3 u o l)
      = Gf (X m c) (WT m c) (Bs m c) (⟨t.val / 9, by have := t_lt t; omega⟩ : Fin 4) o l := by
  have hN := t_lt t
  have h0 : ¬t.val % 9 = 0 := by omega
  have hacc := acc_inv m c t.val t.isLt o l
  rw [outsAt0_C m c t h0 h1] at hacc ⊢
  dsimp only at hacc ⊢
  rw [sout0_C_0_eq] at hacc
  rw [out0_C_3_eq, pay3_apply, hacc, iblk2_apply, h1]
  rfl

/-- What point t writes back is block t of the output array. -/
theorem flushed_eq (c : Dev nD) (t : Fin cfg0.N) (hf : (cfg0.win 3).flush t = true) :
    (dats m 0 c).flushed 3 t = ((cfg0.win 3).blk t).view.read (Elt Ideal) (Gk m c) := by
  have h1 : t.val % 9 = 8 := (flush0_3 t).mp hf
  show (cfg0.win 3).cut (grid0.coords t) ((dats m 0 c).after 3 t) = _
  rw [after0_3]
  funext y
  obtain ⟨u, o, l, rfl⟩ : ∃ (u : Fin 1) (o : Fin 64) (l : Fin 784), y = ix3 u o l := ⟨y 0, y 1, y 2, eq_ix3 y⟩
  rw [blk3_read (Gk m c) t u o l]
  exact out_at m c t h1 u o l

theorem mem_blk3 (t : Fin cfg0.N) (i : S4x64x784.Idx) :
    i ∈ ((cfg0.win 3).blk t).view.set ↔ ∀ a : Fin 3, win0_3.index t a * S1x64x784.size a ≤ (i a).val ∧ (i a).val < win0_3.index t a * S1x64x784.size a + S1x64x784.size a := by
  show i ∈ ((View.whole main_v23).slice (win0_3.rect t)).set ↔ _
  rw [View.set_slice_whole, Rect.mem_set_unit]
  exact Iff.rfl

/-- Every index of the output array is in the block of its batch's last step. -/
theorem cover3 (i : S4x64x784.Idx) : ∃ t : Fin cfg0.N, (cfg0.win 3).flush t = true ∧ i ∈ ((cfg0.win 3).blk t).view.set := by
  have hi0 : (i 0).val < 4 := (i 0).isLt
  have hi1 : (i 1).val < 64 := (i 1).isLt
  have hi2 : (i 2).val < 784 := (i 2).isLt
  have hlt : 9 * (i 0).val + 8 < cfg0.N := by rw [show cfg0.N = 36 from N_0]; omega
  refine ⟨⟨9 * (i 0).val + 8, hlt⟩, (flush0_3 _).mpr (by show (9 * (i 0).val + 8) % 9 = 8; omega), ?_⟩
  rw [mem_blk3]
  obtain ⟨-, -, -, -, -, -, e6, e7, e8⟩ := idx_facts ⟨9 * (i 0).val + 8, hlt⟩
  dsimp only at e6
  intro a
  match a with
  | ⟨0, _⟩ =>
    show win0_3.index ⟨9 * (i 0).val + 8, hlt⟩ (0 : Fin 3) * 1 ≤ (i 0).val ∧ (i 0).val < win0_3.index ⟨9 * (i 0).val + 8, hlt⟩ (0 : Fin 3) * 1 + 1
    omega
  | ⟨1, _⟩ =>
    show win0_3.index ⟨9 * (i 0).val + 8, hlt⟩ (1 : Fin 3) * 64 ≤ (i 1).val ∧ (i 1).val < win0_3.index ⟨9 * (i 0).val + 8, hlt⟩ (1 : Fin 3) * 64 + 64
    omega
  | ⟨2, _⟩ =>
    show win0_3.index ⟨9 * (i 0).val + 8, hlt⟩ (2 : Fin 3) * 784 ≤ (i 2).val ∧ (i 2).val < win0_3.index ⟨9 * (i 0).val + 8, hlt⟩ (2 : Fin 3) * 784 + 784
    omega

/-- The output array after the run. -/
theorem final (c : Dev nD) : (dats m 0 c).arrAt 3 cfg0.N = Gk m c :=
  (dats m 0 c).arrAt_eq_of_cover 3 (Gk m c) (fun t hf => flushed_eq m c t hf) cover3

/-! ## The result, after the reshape that follows the region -/

theorem result_eq (c : Dev nD) :
    Pipeline.afterTail₀ cfgs (dats m) 0 (V0 m) [hostOps1] c main_v24
      = shapeCast S4x64x28x28 (Gk m c) shapeCasts_S4x64x784_S4x64x28x28 := by
  unfold Pipeline.afterTail₀
  show StableHlo.after hostOps1 _ (Proc.devRef .tc main_v24) = _
  after_results
  exact congrArg (fun a => shapeCast S4x64x28x28 a shapeCasts_S4x64x784_S4x64x28x28)
    ((Pipeline.withArrays_arr spec0 launch0.win.arr_inj c _ _ 3).trans (final m c))

/-- The kernel's run: the result at the reshaped output array, the arguments unchanged. -/
theorem run : θ_run defs (onTc (τ := τ) (main (F := Ideal))) ⟨m, fun _ => 0, ρ⟩ (fun r => ∀ c : Dev nD,
      r.2.mem ((c.tc : Thread nD τ).loc main_v24) = shapeCast S4x64x28x28 (Gk m c) shapeCasts_S4x64x784_S4x64x28x28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v24 (Pipeline.mem_restRefs_of main_v24 (by decide) (by decide))).trans (result_eq m c),
    (((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    ((h c).1 2).trans (((dats m 0 c).arrAt_in 2 rfl _).trans ((A_eq m c 2).trans (V_main_arg2 m c)))⟩) (run_main m ρ)

end Cert.KernelIdeal.Conv

end
-- ==== Proof.KernelHost.lean ====
/-
  The arrays the region stages are the reference's own intermediate arrays: both programs unfold the image with the
  same host operations (pad by one, the nine shifted 28 × 28 windows, stacked, reshaped to [4, 576, 784]) and reshape the
  weight to [64, 576]; the kernel's program then exchanges the weight's two axes.
-/
import proofs.«173581_j5368709120690_2_alg».proof.Proof.IdealFrameShared
import proofs.«173581_j5368709120690_2_alg».proof.Proof.Gen.ReferenceIdeal.Read
import proofs.«173581_j5368709120690_2_alg».proof.Proof.ConvSpec
import Idealize.ShloMosaic.Lib.StableHlo.Run
import Idealize.ShloMosaic.Lib.ValueLayout

set_option maxRecDepth 16384

noncomputable section

namespace Cert.KernelIdeal.Frame

open Cert.KernelIdeal Cert.KernelIdeal.Gen Cert.ConvSpec
open Idealize.ShloMosaic Idealize.ShloMosaic.TcCoe Idealize.SL.Sem Idealize.ShloMosaic.StableHlo Idealize.ShloMosaic.ValueIdx

variable (m : (ℓ : Loc nD τ sig) → Buf (Elt Ideal) ℓ)

/-- Each operation's result at its own buffer is its function of its operands; at another buffer, what was there. -/
macro "results_again" : tactic =>
  `(tactic| repeat (first
      | rw [nullary_result] | rw [unary_result] | rw [binary_result]
      | (rw [nullary_result_ne]; rotate_left; decide)
      | (rw [unary_result_ne]; rotate_left; decide)
      | (rw [binary_result_ne]; rotate_left; decide)))

set_option maxHeartbeats 4000000 in
/-- The unfolded image, as the region finds it. -/
theorem V_main_v20 (c : Dev nD) :
    (V m c main_v20 : S4x576x784.Idx → EReal)
      = Cert.ReferenceIdeal.Read.val_main_v20 (F := Ideal) (m ((c : Thread nD τ).loc main_arg0)) := by
  dsimp only [V, V0]
  simp only [hostOps0, hostOps0_1, hostOps0_2, List.flatten_cons, List.flatten_nil, List.append_nil, List.cons_append, List.nil_append]
  after_results
  dsimp only [Matrix.cons_val]
  results_again
  rfl

/-- The transposed weight, as the region finds it. -/
theorem V_main_v22 (c : Dev nD) :
    (V m c main_v22 : S576x64.Idx → EReal)
      = flipW (Cert.ReferenceIdeal.Read.val_main_v21 (F := Ideal) (m ((c : Thread nD τ).loc main_arg1))) := by
  have h : (V m c main_v22 : S576x64.Idx → EReal)
      = transpose S576x64 [1, 0] (Cert.ReferenceIdeal.Read.val_main_v21 (F := Ideal) (m ((c : Thread nD τ).loc main_arg1))) transposes_S64x576_S576x64_1_0 := by
    dsimp only [V, V0]
    simp only [hostOps0, hostOps0_1, hostOps0_2, List.flatten_cons, List.flatten_nil, List.append_nil, List.cons_append, List.nil_append]
    after_results
    rfl
  rw [h]
  funext i
  obtain ⟨j, o, rfl⟩ : ∃ (j : Fin 576) (o : Fin 64), i = ix2 j o := ⟨i 0, i 1, eq_ix2 i⟩
  rw [transpose_ix2_apply, flipW_ix2]

end Cert.KernelIdeal.Frame

end
-- ==== Proof.RefValue.lean ====
/-
  The reference computes the same function: at (b, l, o) it multiplies X[b, k, l] by W[o, k] and by 8, quantises, divides
  by 8, sums over the 576 rows k from 0, multiplies by 8, quantises, divides by 8, adds the bias of channel o,
  and quantises a last time.  Each quantised value is an integer, so the rescaled sum requantised is the integer sum
  clipped, and what remains is the last stage of the specification; the order of the two factors 8 and W is immaterial.
  The result is that array with its last two axes exchanged, then reshaped.
-/
import proofs.«173581_j5368709120690_2_alg».proof.Proof.Gen.ReferenceIdeal.Read
import proofs.«173581_j5368709120690_2_alg».proof.Proof.ConvSpec
import Idealize.ShloMosaic.Lib.ValueIdx

set_option maxRecDepth 16384

noncomputable section

namespace Cert.ReferenceIdeal.RefConv

open Cert.ReferenceIdeal Cert.ReferenceIdeal.Read Cert.QuantMath Cert.ConvSpec
open Idealize.ShloMosaic Idealize.ShloMosaic.ValueIdx

variable (x0 : (⟨S4x64x28x28, .f32⟩ : BufTy).Contents (Elt Ideal)) (x1 : (⟨S64x64x3x3, .f32⟩ : BufTy).Contents (Elt Ideal))
  (x2 : (⟨S64, .f32⟩ : BufTy).Contents (Elt Ideal))

/-- One product: quantised, then divided by 8. -/
theorem v33_apply (b : Fin 4) (l : Fin 784) (o : Fin 64) (k : Fin 576) :
    val_main_v33 (F := Ideal) x0 x1 (ix4 b l o k)
      = Ideal.div (clipRound (val_main_v20 (F := Ideal) x0 (ix3 b k l) * val_main_v21 (F := Ideal) x1 (ix2 o k) * Ideal.ofBits .f32 0x41000000#32))
          (Ideal.ofBits .f32 0x41000000#32) := by
  simp only [val_main_v33_apply, val_main_v32_apply, val_main_cst_2_apply, val_main_v31_apply, val_main_call2_v4_apply, val_main_call2_v3_apply, val_main_cst_1_apply, val_main_call2_v2_apply, val_main_call2_v1_apply, val_main_call2_v0_apply, val_main_cst_0_apply, val_main_v30_apply, val_main_v29_apply, val_main_v28_apply, val_main_cst_apply, val_main_v27_apply, val_main_v25_apply, val_main_v23_apply, val_main_v22_apply, val_main_v26_apply, val_main_v24_apply]
  have e1 : idx_main_v22 (idx_main_v23 (idx_main_v25 (ix4 b l o k))) = ix3 b k l :=
    funext fun a => Fin.ext (by match a with | ⟨0, _⟩ => rfl | ⟨1, _⟩ => rfl | ⟨2, _⟩ => rfl)
  have e2 : idx_main_v24 (idx_main_v26 (ix4 b l o k)) = ix2 o k :=
    funext fun a => Fin.ext (by match a with | ⟨0, _⟩ => rfl | ⟨1, _⟩ => rfl)
  rw [e1, e2]
  rfl

/-- The reference's array before its last transpose, at (b, l, o). -/
theorem v49_apply (b : Fin 4) (l : Fin 784) (o : Fin 64) :
    val_main_v49 (F := Ideal) x0 x1 x2 (ix3 b l o)
      = Gf (val_main_v20 (F := Ideal) x0) (flipW (val_main_v21 (F := Ideal) x1)) x2 b o l := by
  simp only [val_main_v49_apply, val_main_v48_apply, val_main_cst_11_apply, val_main_v47_apply, val_main_call6_v4_apply, val_main_call6_v3_apply, val_main_cst_10_apply, val_main_call6_v2_apply, val_main_call6_v1_apply, val_main_call6_v0_apply, val_main_cst_9_apply, val_main_v46_apply, val_main_v45_apply, val_main_v44_apply, val_main_cst_8_apply, val_main_v43_apply, val_main_v42_apply, val_main_v41_apply, val_main_v40_apply, val_main_v39_apply, val_main_cst_7_apply, val_main_v38_apply, val_main_call4_v4_apply, val_main_call4_v3_apply, val_main_cst_6_apply, val_main_call4_v2_apply, val_main_call4_v1_apply, val_main_call4_v0_apply, val_main_cst_5_apply, val_main_v37_apply, val_main_v36_apply, val_main_v35_apply, val_main_cst_4_apply, val_main_v34_apply, val_main_cst_3_apply]
  have e3 : ∀ k : Fin 576, idx_main_v34 (ix3 b l o) k = ix4 b l o k := fun k =>
    funext fun a => Fin.ext (by match a with | ⟨0, _⟩ => rfl | ⟨1, _⟩ => rfl | ⟨2, _⟩ => rfl | ⟨3, _⟩ => rfl)
  have e4 : idx_main_v41 (idx_main_v42 (ix3 b l o)) = ix1 o :=
    funext fun a => Fin.ext (by match a with | ⟨0, _⟩ => rfl)
  simp only [e3, e4, v33_apply]
  change Ideal.div (clipRound ((Ideal.div (clipRound ((Ideal.ofBits .f32 0x00000000#32 + ∑ k : Fin 576,
      Ideal.div (clipRound (val_main_v20 (F := Ideal) x0 (ix3 b k l) * val_main_v21 (F := Ideal) x1 (ix2 o k) * Ideal.ofBits .f32 0x41000000#32))
        (Ideal.ofBits .f32 0x41000000#32)) * Ideal.ofBits .f32 0x41000000#32)) (Ideal.ofBits .f32 0x41000000#32) + x2 (ix1 o))
      * Ideal.ofBits .f32 0x41000000#32)) (Ideal.ofBits .f32 0x41000000#32) = _
  simp only [clipRound_eq (_ * _ * Ideal.ofBits .f32 0x41000000#32)]
  rw [Ideal.ofBits_zero_f32, requantise_sum Finset.univ]
  unfold Gf epilogue
  have hZ : ∑ k : Fin 576, qz (val_main_v20 (F := Ideal) x0 (ix3 b k l) * val_main_v21 (F := Ideal) x1 (ix2 o k) * Ideal.ofBits .f32 0x41000000#32)
      = ∑ j ∈ Finset.range 576, fz (val_main_v20 (F := Ideal) x0) (flipW (val_main_v21 (F := Ideal) x1)) b.val o l j := by
    rw [← Fin.sum_univ_eq_sum_range (fun j => fz (val_main_v20 (F := Ideal) x0) (flipW (val_main_v21 (F := Ideal) x1)) b.val o l j) 576]
    refine Finset.sum_congr rfl fun k _ => ?_
    unfold fz
    rw [jx_val, bx_val, flipW_ix2, mul_right_comm]
  rw [hZ]

/-- The reference's array after the transpose is the specification's output. -/
theorem v50_eq : val_main_v50 (F := Ideal) x0 x1 x2 = G (val_main_v20 (F := Ideal) x0) (flipW (val_main_v21 (F := Ideal) x1)) x2 := by
  funext i
  obtain ⟨b, o, l, rfl⟩ : ∃ (b : Fin 4) (o : Fin 64) (l : Fin 784), i = ix3 b o l := ⟨i 0, i 1, i 2, eq_ix3 i⟩
  rw [val_main_v50_apply, G_ix3]
  have e0 : idx_main_v50 (ix3 b o l) = ix3 b l o :=
    funext fun a => Fin.ext (by match a with | ⟨0, _⟩ => rfl | ⟨1, _⟩ => rfl | ⟨2, _⟩ => rfl)
  rw [e0]
  exact v49_apply x0 x1 x2 b l o

end Cert.ReferenceIdeal.RefConv

end
-- ==== Proof.lean ====
/-
  The certificate of the quantised 3 × 3 convolution kernel against its reference.

  Both programs unfold the padded image into X [4, 576, 784] (576 = 64 channels × 9 taps, 784 = 28 × 28 output
  positions) and reshape the weight to [64, 576].  The reference forms every product X[b, k, l] · W[o, k], scales it by 8,
  quantises it (round to nearest even, clip to [-128, 127]), divides by 8, sums over k, and quantises the sum and then the
  sum plus bias in the same way.  The kernel keeps integer units: it quantises (X[b, k, l] · 8) · W[o, k], accumulates
  the integers over k in a scratch block across nine grid steps of 64 rows (eight chunks of eight rows each), and at
  the last step clips the sum, divides by 8, adds the bias and quantises once.  On the extended reals each quantised
  value is an integer of [-128, 127] whatever is quantised, so the reference's rescaled sum, multiplied back by 8, is
  the kernel's integer sum, which rounding leaves alone: the two results are one function of the arguments.

  The three frames: the kernel's program (at the bit level and at the exact values) by running its body in each of the
  three cases of its two conditionals and launching the pipeline; the reference by its run.  Nothing was rewritten
  between the kernel and its exact-value reading, so that claim is trivial.
-/
import proofs.«173581_j5368709120690_2_alg».proof.Defs
import proofs.«173581_j5368709120690_2_alg».proof.Proof.Gen.Kernel
import proofs.«173581_j5368709120690_2_alg».proof.Proof.Gen.KernelIdeal
import proofs.«173581_j5368709120690_2_alg».proof.Proof.Gen.ReferenceIdeal
import proofs.«173581_j5368709120690_2_alg».proof.Proof.Gen.ReferenceIdeal.Run
import proofs.«173581_j5368709120690_2_alg».proof.Proof.Gen.ReferenceIdeal.Read
import proofs.«173581_j5368709120690_2_alg».proof.Proof.Gen.Pre_finite_inputs
import proofs.«173581_j5368709120690_2_alg».proof.Proof.BitsFrame
import proofs.«173581_j5368709120690_2_alg».proof.Proof.KernelValue
import proofs.«173581_j5368709120690_2_alg».proof.Proof.KernelHost
import proofs.«173581_j5368709120690_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program, at the bit level, runs to the end, faults nowhere, and leaves its arguments unchanged. -/
theorem frame_kernel : Cert.frame_Kernel (hKernel := Cert.Kernel.Gen.facts) (hPre_finite_inputs := Cert.Pre_finite_inputs.Gen.facts) :=
  fun m ρ _ => Cert.Kernel.Frame.frame m ρ

/-- The same at the exact values. -/
theorem frame_kernelIdeal : Cert.frame_KernelIdeal (hKernelIdeal := Cert.KernelIdeal.Gen.facts) (hPre_finite_inputs := Cert.Pre_finite_inputs.Gen.facts) :=
  fun m ρ _ => Cert.KernelIdeal.Frame.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the exact values both programs end with the specification's output of the same three arrays, reshaped. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => shapeCast Cert.KernelIdeal.S4x64x28x28 (Cert.KernelIdeal.Conv.Gk m c) Cert.KernelIdeal.Gen.shapeCasts_S4x64x784_S4x64x28x28,
    Cert.KernelIdeal.Conv.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.1, (hagree c).2.2]
  unfold Cert.ReferenceIdeal.Read.val_main_v51
  rw [Cert.ReferenceIdeal.RefConv.v50_eq]
  have hX : Cert.KernelIdeal.Conv.X m c = Cert.ReferenceIdeal.Read.val_main_v20 (F := Ideal) (m ((c : Thread Cert.KernelIdeal.nD Cert.KernelIdeal.τ).loc Cert.KernelIdeal.main_arg0)) :=
    Cert.KernelIdeal.Frame.V_main_v20 m c
  have hW : Cert.KernelIdeal.Conv.WT m c = Cert.ConvSpec.flipW (Cert.ReferenceIdeal.Read.val_main_v21 (F := Ideal) (m ((c : Thread Cert.KernelIdeal.nD Cert.KernelIdeal.τ).loc Cert.KernelIdeal.main_arg1))) :=
    Cert.KernelIdeal.Frame.V_main_v22 m c
  have hB : Cert.KernelIdeal.Conv.Bs m c = m ((c : Thread Cert.KernelIdeal.nD Cert.KernelIdeal.τ).loc Cert.KernelIdeal.main_arg2) :=
    Cert.KernelIdeal.Frame.V_main_arg2 m c
  show _ = shapeCast Cert.KernelIdeal.S4x64x28x28 (Cert.ConvSpec.G (Cert.KernelIdeal.Conv.X m c) (Cert.KernelIdeal.Conv.WT m c) (Cert.KernelIdeal.Conv.Bs m c)) Cert.KernelIdeal.Gen.shapeCasts_S4x64x784_S4x64x28x28
  rw [hX, hW, hB]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
